-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096 : Shape := ⟨2, ![4, 4096]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : FVec F S4x4096x3 .f32) (main_arg1 : FVec F S4x4096 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  main_v8
-- ==== Kernel.lean ====
abbrev S4x4096x3 : Shape := ⟨3, ![4, 4096, 3]⟩
abbrev S4x4096 : Shape := ⟨2, ![4, 4096]⟩
abbrev S4x3x4096 : Shape := ⟨3, ![4, 3, 4096]⟩
abbrev S4x4096x1 : Shape := ⟨3, ![4, 4096, 1]⟩
abbrev S4x1x4096 : Shape := ⟨3, ![4, 1, 4096]⟩
abbrev S1x512x3 : Shape := ⟨3, ![1, 512, 3]⟩
abbrev S1x512x1 : Shape := ⟨3, ![1, 512, 1]⟩
abbrev S1x3x1024 : Shape := ⟨3, ![1, 3, 1024]⟩
abbrev S1x1x1024 : Shape := ⟨3, ![1, 1, 1024]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 6
  | .vmem => 13
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x3x4096, .f32⟩
  | .hbm, ⟨3, _⟩ => ⟨S4x4096x1, .f32⟩
  | .hbm, ⟨4, _⟩ => ⟨S4x1x4096, .f32⟩
  | .hbm, ⟨5, _⟩ => ⟨S4x4096x3, .f32⟩
  | .local _ .vmem, ⟨0, _⟩ => ⟨S1x512x3, .f32⟩
  | .local _ .vmem, ⟨1, _⟩ => ⟨S1x512x3, .f32⟩
  | .local _ .vmem, ⟨2, _⟩ => ⟨S1x512x1, .f32⟩
  | .local _ .vmem, ⟨3, _⟩ => ⟨S1x512x1, .f32⟩
  | .local _ .vmem, ⟨4, _⟩ => ⟨S1x3x1024, .f32⟩
  | .local _ .vmem, ⟨5, _⟩ => ⟨S1x3x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x3, .f32⟩
  | .local _ .vmem, ⟨9, _⟩ => ⟨S1x512x3, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v78 : BitVec 1 := Scalar.cmpi .eq arg2 c3_i32
  let v79 : BitVec 32 := Scalar.extui v78
  let c0_i32_44 : BitVec 32 := 0#32
  let v80 : BitVec 1 := Scalar.cmpi .ne v79 c0_i32_44
  v80

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S4x4096x3_S4x3x4096_0_2_1 : S4x4096x3.Transposes [0, 2, 1] S4x3x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x3_S1x512x1_0_0_0 : ∀ a, (![0, 0, 0] : Fin 3 → Nat) a + S1x512x1.size a ≤ S1x512x3.size a
  h_S1x512x1 : 0 < S1x512x1.numel
  shapeCasts_S1x512x1_S512x1 : S1x512x1.ShapeCasts S512x1
  inb_S1x512x3_S1x512x1_0_0_1 : ∀ a, (![0, 0, 1] : Fin 3 → Nat) a + S1x512x1.size a ≤ S1x512x3.size a
  inb_S1x512x3_S1x512x1_0_0_2 : ∀ a, (![0, 0, 2] : Fin 3 → Nat) a + S1x512x1.size a ≤ S1x512x3.size a
  inb_S1x512x1_S1x512x1_0_0_0 : ∀ a, (![0, 0, 0] : Fin 3 → Nat) a + S1x512x1.size a ≤ S1x512x1.size a
  inb_S1x3x1024_S1x1x1024_0_0_0 : ∀ a, (![0, 0, 0] : Fin 3 → Nat) a + S1x1x1024.size a ≤ S1x3x1024.size a
  h_S1x1x1024 : 0 < S1x1x1024.numel
  shapeCasts_S1x1x1024_S1x1024 : S1x1x1024.ShapeCasts S1x1024
  inb_S1x3x1024_S1x1x1024_0_1_0 : ∀ a, (![0, 1, 0] : Fin 3 → Nat) a + S1x1x1024.size a ≤ S1x3x1024.size a
  inb_S1x3x1024_S1x1x1024_0_2_0 : ∀ a, (![0, 2, 0] : Fin 3 → Nat) a + S1x1x1024.size a ≤ S1x3x1024.size a
  inb_S1x1x1024_S1x1x1024_0_0_0 : ∀ a, (![0, 0, 0] : Fin 3 → Nat) a + S1x1x1024.size a ≤ S1x1x1024.size a
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S512x1_S1x512x1 : S512x1.ShapeCasts S1x512x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S4x4096x1.size a
  hwx0_1 : ∀ i : grid0.Coords, EltTy.bits .f32 = 32 ∨ (Rect.block (s := S4x4096x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1024.size a ≤ S4x3x4096.size a
  hwx0_2 : ∀ i : grid0.Coords, EltTy.bits .f32 = 32 ∨ (Rect.block (s := S4x3x4096) S1x3x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x3.size a ≤ S4x4096x3.size a
  hwx0_4 : ∀ i : grid0.Coords, EltTy.bits .f32 = 32 ∨ (Rect.block (s := S4x4096x3) S1x512x3.size (cc0_transform_4 i) (hinb0_4 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096 : Shape := ⟨2, ![4, 4096]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4x4096x4096x1 : Shape := ⟨4, ![4, 4096, 4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .i1⟩
  | .hbm, ⟨13, _⟩ => ⟨S_, .f32⟩
  | .hbm, ⟨14, _⟩ => ⟨S4x4096x4096, .f32⟩
  | .hbm, ⟨15, _⟩ => ⟨S4x4096x4096, .i1⟩
  | .hbm, ⟨16, _⟩ => ⟨S_, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x1, .f32⟩
  | .hbm, ⟨26, _⟩ => ⟨S4x1x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S4x4096x4096x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x4096x4096x3, .f32⟩
  | .hbm, ⟨42, _⟩ => ⟨S4x4096x4096x3, .f32⟩
  | .hbm, ⟨43, _⟩ => ⟨S_, .f32⟩
  | .hbm, ⟨44, _⟩ => ⟨S4x4096x4096x3, .f32⟩
  | .hbm, ⟨45, _⟩ => ⟨S4x4096x4096x3, .f32⟩
  | .hbm, ⟨46, _⟩ => ⟨S4x4096x4096x3, .f32⟩
  | .hbm, ⟨47, _⟩ => ⟨S4x4096x4096x3, .f32⟩
  | .hbm, ⟨48, _⟩ => ⟨S_, .f32⟩
  | .hbm, ⟨49, _⟩ => ⟨S4x4096x3, .f32⟩
  | .hbm, ⟨50, _⟩ => ⟨S_, .f32⟩
  | .hbm, ⟨51, _⟩ => ⟨S4x4096x3, .f32⟩
  | .hbm, ⟨52, _⟩ => ⟨S4x4096x3, .f32⟩
  | .hbm, ⟨53, _⟩ => ⟨S_, .f32⟩
  | .hbm, ⟨54, _⟩ => ⟨S4x4096x3, .f32⟩
  | .hbm, ⟨55, _⟩ => ⟨S4x4096x3, .f32⟩
  | .hbm, ⟨56, _⟩ => ⟨S4x4096x3, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call2_cst : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_cst_6 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  bcast_S_S4x4096x4096 : S_.BroadcastsInDim S4x4096x4096 (![] : Fin 0 → Fin S4x4096x4096.rank)
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S4x4096x4096_S4x4096x4096x1_0_1_2 : S4x4096x4096.BroadcastsInDim S4x4096x4096x1 (![0, 1, 2] : Fin 3 → Fin S4x4096x4096x1.rank)
  bcast_S_S4x4096x4096x3 : S_.BroadcastsInDim S4x4096x4096x3 (![] : Fin 0 → Fin S4x4096x4096x3.rank)
  bcast_S4x4096x4096x1_S4x4096x4096x3_0_1_2_3 : S4x4096x4096x1.BroadcastsInDim S4x4096x4096x3 (![0, 1, 2, 3] : Fin 4 → Fin S4x4096x4096x3.rank)
  reducesTo_S4x4096x4096x3_S4x4096x3_d2 : S4x4096x4096x3.ReducesTo [2] S4x4096x3
  bcast_S_S4x4096x3 : S_.BroadcastsInDim S4x4096x3 (![] : Fin 0 → Fin S4x4096x3.rank)

variable [Facts₀]

class Facts : Prop extends Facts₀ where

variable [Facts]
-- ==== Proof.Consts.lean ====
/-
  The two float constants whose values the proof uses, as the extended reals their binary patterns denote.

  The reference divides a sum of 4096 terms by the constant 4096.0; the kernel multiplies the same sum by the
  constant 2.44140625e-4. Both are exact powers of two, 2^12 and 2^-12, so the second is exactly the reciprocal of
  the first and no rounding separates the two programs here.
-/
import Idealize.ShloMosaic.PureOps.Ideal

noncomputable section

namespace Cert.Steric.Consts

open Idealize.ShloMosaic

/-- The pattern of 4096.0 denotes the real number 4096. -/
theorem ofBits_4096 : Ideal.ofBits .f32 0x45800000#32 = ((4096 : ℝ) : EReal) := by
  simp [Ideal.ofBits, Ideal.ieee, -EReal.coe_mul]; norm_num

/-- The pattern of 2.44140625e-4 denotes the real number 1/4096. -/
theorem ofBits_inv4096 : Ideal.ofBits .f32 0x39800000#32 = ((1 / 4096 : ℝ) : EReal) := by
  simp [Ideal.ofBits, Ideal.ieee, -EReal.coe_mul]; norm_num

end Cert.Steric.Consts

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.LibSafeSqrt.lean ====
/-
  The guarded square root of a squared distance, over the extended reals.

  A pairwise distance is often written "the root of d² where d² > 0, else 0", with a second guard inside that feeds the
  root some harmless number where d² is not positive (the form that keeps a derivative finite at coincident points).
  On the extended reals a square is never negative (the infinities square to +∞), so a sum of three squares is never
  negative, the root of zero is zero, and the guarded form is the plain root — whatever the harmless number is, and with
  no assumption that the operands are finite.

  * `mul_self_nonneg`: 0 ≤ x · x for every extended real x.
  * `sum_sq3_nonneg`: 0 ≤ (x·x + y·y) + z·z.
  * `sqrt_zero`: the exact root of 0 is 0.
  * `guarded_sqrt`: for 0 ≤ d, select (d > 0) (√(select (d > 0) d w)) 0 = √d, the zeros spelt as the f32 zero pattern.
-/
import Idealize.ShloMosaic.PureOps.Ideal.Laws
import Idealize.ShloMosaic.Lib.ValueIdx

noncomputable section

namespace Cert.LibSafeSqrt

open Idealize.ShloMosaic Idealize.ShloMosaic.ValueIdx

/-- A square of an extended real is not negative (the infinities square to +∞). -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (_root_.mul_self_nonneg r)

/-- So a sum of three squares is not negative. -/
theorem sum_sq3_nonneg (x y z : EReal) : 0 ≤ (x * x + y * y) + z * z :=
  add_nonneg (add_nonneg (mul_self_nonneg x) (mul_self_nonneg y)) (mul_self_nonneg z)

/-- The root of zero is zero. -/
theorem sqrt_zero : Ideal.sqrt 0 = 0 := by
  rw [← EReal.coe_zero, Ideal.sqrt_coe]; simp

/-- The guarded root: where d > 0 the root of d, elsewhere 0 — with the inner guard that feeds the root the number w
    where d is not positive. On a d that is not negative this is the plain root. -/
theorem guarded_sqrt (d w : EReal) (h : 0 ≤ d) :
    Scalar.select (Ideal.cmp .ogt d (Ideal.ofBits .f32 0x00000000#32))
        (Ideal.sqrt (Scalar.select (Ideal.cmp .ogt d (Ideal.ofBits .f32 0x00000000#32)) d w)) (Ideal.ofBits .f32 0x00000000#32)
      = Ideal.sqrt d := by
  rw [Ideal.ofBits_zero_f32]
  by_cases hp : 0 < d
  · have hc : Ideal.cmp .ogt d 0 = 1#1 := by simp [Ideal.cmp, hp]
    rw [hc, select_one, select_one]
  · have h0 : d = 0 := le_antisymm (not_lt.mp hp) h
    have hc : Ideal.cmp .ogt d 0 = 0#1 := by simp [Ideal.cmp, hp]
    rw [hc, select_zero, h0, sqrt_zero]

end Cert.LibSafeSqrt

end
-- ==== Proof.Spec.lean ====
/-
  The steric push, as one function of the coordinates and the radii over the extended reals.

  For a batch b, a point i and an axis a, the result is

      c(b,i,a) + (0.1 · Σₖ penalty(b,i,k) · clip(c(b,i,a) − c(b,k,a))) · 2⁻¹²,

  the sum over all 4096 points k of the batch, where penalty = max(max(1, r(b,i) + r(b,k)) − √d², 0) and d² is the
  squared distance of points i and k. This file states that function and the laws that bring the two programs to it:
  a square is never negative, so the guarded root (take √ only where d² > 0, else 0) is the plain root; a sum of three
  terms started from zero is the three terms added in order; a mean over 4096 terms scaled by 0.1 is the sum scaled by
  0.1 and then by 2⁻¹²; and a sum over 4096 positions is the running total of four chunks of 1024. None of these laws
  needs the inputs to be finite: they use only that addition and multiplication of extended reals commute and
  associate, that 0 is neutral, and the order.
-/
import Idealize.ShloMosaic.PureOps.Ideal.Laws
import Idealize.ShloMosaic.Lib.ValueIdx
import proofs.«178476_j67714454389373_2_alg».proof.Proof.Consts
import proofs.«178476_j67714454389373_2_alg».proof.Proof.LibChunkSum
import proofs.«178476_j67714454389373_2_alg».proof.Proof.LibSafeSqrt

noncomputable section

open scoped BigOperators

namespace Cert.Steric

open Idealize.ShloMosaic Idealize.ShloMosaic.ValueIdx

/-- The constants the two programs spell, by their patterns: 0, 1, −1, 0.1 (as rounded), 4096 and 2⁻¹². -/
abbrev zeroW : EReal := Ideal.ofBits .f32 0x00000000#32
abbrev oneW : EReal := Ideal.ofBits .f32 0x3F800000#32
abbrev negOneW : EReal := Ideal.ofBits .f32 0xBF800000#32
abbrev tenthW : EReal := Ideal.ofBits .f32 0x3DCCCCCD#32
abbrev countW : EReal := Ideal.ofBits .f32 0x45800000#32
abbrev invCountW : EReal := Ideal.ofBits .f32 0x39800000#32

/-- The squared length of a difference vector, the squares added in axis order. -/
def dist2 (dx dy dz : EReal) : EReal := (dx * dx + dy * dy) + dz * dz

/-- How far two points are pushed apart: the target distance max(1, rᵢ + rₖ) less their distance, cut at zero. -/
def penalty (ri rk d2 : EReal) : EReal := max (max oneW (ri + rk) - Ideal.sqrt d2) zeroW

/-- A difference clipped into [−1, 1]. -/
def clip (d : EReal) : EReal := min oneW (max negOneW d)

abbrev Coords := (⟨3, ![4, 4096, 3]⟩ : Shape).Idx → EReal
abbrev Radii := (⟨2, ![4, 4096]⟩ : Shape).Idx → EReal

/-- The squared distance of points i and k of batch b. -/
def sep2 (c : Coords) (b : Fin 4) (i k : Fin 4096) : EReal :=
  dist2 (c (ix3 b i (0 : Fin 3)) - c (ix3 b k (0 : Fin 3))) (c (ix3 b i (1 : Fin 3)) - c (ix3 b k (1 : Fin 3)))
    (c (ix3 b i (2 : Fin 3)) - c (ix3 b k (2 : Fin 3)))

/-- Point k's push on point i along axis a. -/
def push (c : Coords) (r : Radii) (b : Fin 4) (i k : Fin 4096) (a : Fin 3) : EReal :=
  penalty (r (ix2 b i)) (r (ix2 b k)) (sep2 c b i k) * clip (c (ix3 b i a) - c (ix3 b k a))

/-- The result at batch b, point i, axis a. -/
def movedAt (c : Coords) (r : Radii) (b : Fin 4) (i : Fin 4096) (a : Fin 3) : EReal :=
  c (ix3 b i a) + (tenthW * ∑ k : Fin 4096, push c r b i k a) * invCountW

/-- The whole result array. -/
def moved (c : Coords) (r : Radii) : Coords := fun j => movedAt c r (j 0) (j 1) (j 2)

/-! ## The laws -/

/-- A squared distance is not negative: it is a sum of three squares, and a square of an extended real is never negative. -/
theorem dist2_nonneg (dx dy dz : EReal) : 0 ≤ dist2 dx dy dz := Cert.LibSafeSqrt.sum_sq3_nonneg dx dy dz

/-- The guarded root: where d² > 0 the root of d², elsewhere 0 — with the inner guard that feeds the root a 1 where
    d² is not positive. On a number that is not negative this is the plain root. -/
theorem guarded_sqrt (d2 : EReal) (h : 0 ≤ d2) :
    Scalar.select (Ideal.cmp .ogt d2 zeroW) (Ideal.sqrt (Scalar.select (Ideal.cmp .ogt d2 zeroW) d2 oneW)) zeroW
      = Ideal.sqrt d2 := Cert.LibSafeSqrt.guarded_sqrt d2 oneW h

/-- A sum over the three axes started from the zero constant is the three terms added in order. -/
theorem sum_three (f : Fin 3 → EReal) : zeroW + ∑ a : Fin 3, f a = (f 0 + f 1) + f 2 := by
  rw [show zeroW = 0 from Ideal.ofBits_zero_f32, zero_add, Fin.sum_univ_three]

/-- The mean over 4096 terms (a sum started from the zero constant, divided by 4096) scaled by 0.1 is the sum scaled
    by 0.1 and then by 2⁻¹²: division by 4096 is multiplication by its exact reciprocal, and products associate. -/
theorem mean_scaled (S : EReal) : tenthW * Ideal.div (zeroW + S) countW = (tenthW * S) * invCountW := by
  rw [show zeroW = 0 from Ideal.ofBits_zero_f32, zero_add, show countW = ((4096 : ℝ) : EReal) from Consts.ofBits_4096,
    Ideal.div_coe (by norm_num : (4096 : ℝ) ≠ 0), show invCountW = ((1 / 4096 : ℝ) : EReal) from Consts.ofBits_inv4096, mul_assoc]

/-- Position q of chunk k of 1024 among 4096 positions. -/
def chunkPos (k : Fin 4) (q : Fin 1024) : Fin 4096 := ⟨1024 * k.val + q.val, by have := k.isLt; have := q.isLt; omega⟩

/-- The running total of the four chunks of 1024, started from the zero constant, is the sum over all 4096 positions. -/
theorem running_chunks (T : Fin 4096 → EReal) :
    (((zeroW + ∑ q : Fin 1024, T (chunkPos 0 q)) + ∑ q : Fin 1024, T (chunkPos 1 q)) + ∑ q : Fin 1024, T (chunkPos 2 q))
        + ∑ q : Fin 1024, T (chunkPos 3 q) = ∑ k : Fin 4096, T k := by
  rw [show zeroW = 0 from Ideal.ofBits_zero_f32]
  exact Cert.LibChunkSum.running_four 1024 (T : Fin (4 * 1024) → EReal) chunkPos (fun _ _ => rfl)

end Cert.Steric

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«178476_j67714454389373_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.Body.lean ====
/-
  One grid point's arithmetic, read entry by entry over the extended reals.

  At a grid point the body holds a block of 512 query points (their coordinates, one row per point and one column per
  axis, and their radii as a column) and a block of 1024 key points (their coordinates, one row per axis, and their radii
  as a row). For each axis it adds to a running column the row sums of penalty · clipped difference over the 512 × 1024
  pairs of the two blocks; at the last key block it stores coordinate + (0.1 · total) · 2⁻¹² column by column. This file
  names those steps as functions of the loaded blocks (at any reading of the floats) and reads them, at the exact
  reading, at one entry: the step for an axis adds to the running column, at row p, the sum over the 1024 key points q of
  the push of q on p along that axis.
-/
import proofs.«178476_j67714454389373_2_alg».proof.Proof.Gen.KernelIdeal.Skeleton
import proofs.«178476_j67714454389373_2_alg».proof.Proof.Spec
import proofs.«178476_j67714454389373_2_alg».proof.Proof.LibColumns
import Idealize.ShloMosaic.Lib.Pipeline.Value
import Idealize.ShloMosaic.Lib.ValueLayout

noncomputable section

open scoped BigOperators

namespace Cert.KernelIdeal.Body

open Idealize.ShloMosaic Idealize.ShloMosaic.ValueIdx
open Cert.KernelIdeal Cert.KernelIdeal.Gen Cert.Steric

/-! ## The steps, at any reading of the floats -/

section AnyReading
variable {F : FTy → Type} [FloatOps F]

/-- Column a of the query block (a = 0, 1, 2), as the body loads it. -/
abbrev qx (x0 : Vec F S1x512x3 .f32) : Vec F S1x512x1 .f32 :=
  View.ld x0 (Rect.unit (s := S1x512x3) ![0, 0, 0] S1x512x1.size inb_S1x512x3_S1x512x1_0_0_0)
abbrev qy (x0 : Vec F S1x512x3 .f32) : Vec F S1x512x1 .f32 :=
  View.ld x0 (Rect.unit (s := S1x512x3) ![0, 0, 1] S1x512x1.size inb_S1x512x3_S1x512x1_0_0_1)
abbrev qz (x0 : Vec F S1x512x3 .f32) : Vec F S1x512x1 .f32 :=
  View.ld x0 (Rect.unit (s := S1x512x3) ![0, 0, 2] S1x512x1.size inb_S1x512x3_S1x512x1_0_0_2)

/-- Row a of the key block. -/
abbrev kx (x2 : Vec F S1x3x1024 .f32) : Vec F S1x1x1024 .f32 :=
  View.ld x2 (Rect.unit (s := S1x3x1024) ![0, 0, 0] S1x1x1024.size inb_S1x3x1024_S1x1x1024_0_0_0)
abbrev ky (x2 : Vec F S1x3x1024 .f32) : Vec F S1x1x1024 .f32 :=
  View.ld x2 (Rect.unit (s := S1x3x1024) ![0, 1, 0] S1x1x1024.size inb_S1x3x1024_S1x1x1024_0_1_0)
abbrev kz (x2 : Vec F S1x3x1024 .f32) : Vec F S1x1x1024 .f32 :=
  View.ld x2 (Rect.unit (s := S1x3x1024) ![0, 2, 0] S1x1x1024.size inb_S1x3x1024_S1x1x1024_0_2_0)

/-- The 512 × 1024 penalties of the two blocks. -/
def pens (x0 : Vec F S1x512x3 .f32) (x1 : Vec F S1x512x1 .f32) (x2 : Vec F S1x3x1024 .f32) (x3 : Vec F S1x1x1024 .f32) :
    FVec F S512x1024 .f32 :=
  k0_pay16 (k0_pay9 x1) (k0_pay10 x3) (k0_pay13 (qz x0) (kz x2)) (k0_pay14 (qx x0) (kx x2)) (k0_pay15 (qy x0) (ky x2))

/-- One point's step on the running column of the first axis: the column plus the row sums of penalty · clipped
    difference along that axis. -/
def stepX (x0 : Vec F S1x512x3 .f32) (x1 : Vec F S1x512x1 .f32) (x2 : Vec F S1x3x1024 .f32) (x3 : Vec F S1x1x1024 .f32)
    (acc : Vec F S512x1 .f32) : FVec F S512x1 .f32 :=
  k0_pay18 (k0_pay9 x1) (k0_pay10 x3) (k0_pay11 (qx x0) (kx x2)) (k0_pay13 (qz x0) (kz x2)) (k0_pay14 (qx x0) (kx x2))
    (k0_pay15 (qy x0) (ky x2)) acc

/-- The same for the second axis. -/
def stepY (x0 : Vec F S1x512x3 .f32) (x1 : Vec F S1x512x1 .f32) (x2 : Vec F S1x3x1024 .f32) (x3 : Vec F S1x1x1024 .f32)
    (acc : Vec F S512x1 .f32) : FVec F S512x1 .f32 :=
  k0_pay19 (k0_pay9 x1) (k0_pay10 x3) (k0_pay12 (qy x0) (ky x2)) (k0_pay13 (qz x0) (kz x2)) (k0_pay14 (qx x0) (kx x2))
    (k0_pay15 (qy x0) (ky x2)) acc

/-- The same for the third axis. -/
def stepZ (x0 : Vec F S1x512x3 .f32) (x1 : Vec F S1x512x1 .f32) (x2 : Vec F S1x3x1024 .f32) (x3 : Vec F S1x1x1024 .f32)
    (acc : Vec F S512x1 .f32) : FVec F S512x1 .f32 :=
  k0_pay1 (pens x0 x1 x2 x3) (k0_pay17 (k0_pay13 (qz x0) (kz x2))) acc

/-- The zero column a running total starts from. -/
def zeroCol : FVec F S512x1 .f32 := k0_pay6

/-- The three columns the last key block's point stores: coordinate + (0.1 · total) · 2⁻¹². -/
def outX (x0 : Vec F S1x512x3 .f32) (tot : Vec F S512x1 .f32) : FVec F S1x512x1 .f32 := k0_pay3 (qx x0) tot
def outY (x0 : Vec F S1x512x3 .f32) (tot : Vec F S512x1 .f32) : FVec F S1x512x1 .f32 := k0_pay4 (qy x0) tot
def outZ (x0 : Vec F S1x512x3 .f32) (tot : Vec F S512x1 .f32) : FVec F S1x512x1 .f32 := k0_pay2 (k0_pay5 (qz x0) tot)

/-- The block the last key block's point leaves: the three columns side by side. -/
def outBlock (x0 : Vec F S1x512x3 .f32) (tx ty tz : Vec F S512x1 .f32) : Vec F S1x512x3 .f32 :=
  View.canon [(⟨Rect.unit (s := S1x512x3) ![0, 0, 2] S1x512x1.size inb_S1x512x3_S1x512x1_0_0_2, outZ x0 tz⟩ : View.Piece (Elt F) S1x512x3 .f32),
    ⟨Rect.unit (s := S1x512x3) ![0, 0, 1] S1x512x1.size inb_S1x512x3_S1x512x1_0_0_1, outY x0 ty⟩,
    ⟨Rect.unit (s := S1x512x3) ![0, 0, 0] S1x512x1.size inb_S1x512x3_S1x512x1_0_0_0, outX x0 tx⟩]

theorem zeroCol_x : (k0_pay6 : FVec F S512x1 .f32) = zeroCol := rfl
theorem zeroCol_y : (k0_pay7 : FVec F S512x1 .f32) = zeroCol := rfl
theorem zeroCol_z : (k0_pay8 : FVec F S512x1 .f32) = zeroCol := rfl

end AnyReading

/-! ## Read at an entry, at the exact reading -/

/-- A load through a rectangle of unit strides reads the contents at the offset plus the local coordinate. -/
theorem ld_unit_apply {S : Shape} {Val : EltTy → Type} {e : EltTy} (X : S.Idx → Val e) (off size : Fin S.rank → Nat) (inb : ∀ a, off a + size a ≤ S.size a)
    (x : (Rect.unit off size inb).shape.Idx) (k : S.Idx) (hk : ∀ a, (k a).val = off a + (x a).val) :
    View.ld X (Rect.unit off size inb) x = X k :=
  congrArg X (funext fun a => Fin.ext (by
    rw [hk a]; show off a + 1 * (x a).val = off a + (x a).val; rw [Nat.one_mul]))

variable (x0 : FVec Ideal S1x512x3 .f32) (x1 : FVec Ideal S1x512x1 .f32) (x2 : FVec Ideal S1x3x1024 .f32) (x3 : FVec Ideal S1x1x1024 .f32)

theorem qx_apply (p : Fin 512) : qx (F := Ideal) x0 (ix3 (0 : Fin 1) p (0 : Fin 1)) = x0 (ix3 (0 : Fin 1) p (0 : Fin 3)) :=
by
  refine ld_unit_apply (S := S1x512x3) (Val := Elt Ideal) (e := .f32) x0 _ _ _ _ _ fun a => ?_
  match a with
  | ⟨0, _⟩ => rfl
  | ⟨1, _⟩ => show p.val = 0 + p.val; omega
  | ⟨2, _⟩ => rfl
theorem qy_apply (p : Fin 512) : qy (F := Ideal) x0 (ix3 (0 : Fin 1) p (0 : Fin 1)) = x0 (ix3 (0 : Fin 1) p (1 : Fin 3)) :=
by
  refine ld_unit_apply (S := S1x512x3) (Val := Elt Ideal) (e := .f32) x0 _ _ _ _ _ fun a => ?_
  match a with
  | ⟨0, _⟩ => rfl
  | ⟨1, _⟩ => show p.val = 0 + p.val; omega
  | ⟨2, _⟩ => rfl
theorem qz_apply (p : Fin 512) : qz (F := Ideal) x0 (ix3 (0 : Fin 1) p (0 : Fin 1)) = x0 (ix3 (0 : Fin 1) p (2 : Fin 3)) :=
by
  refine ld_unit_apply (S := S1x512x3) (Val := Elt Ideal) (e := .f32) x0 _ _ _ _ _ fun a => ?_
  match a with
  | ⟨0, _⟩ => rfl
  | ⟨1, _⟩ => show p.val = 0 + p.val; omega
  | ⟨2, _⟩ => rfl
theorem kx_apply (q : Fin 1024) : kx (F := Ideal) x2 (ix3 (0 : Fin 1) (0 : Fin 1) q) = x2 (ix3 (0 : Fin 1) (0 : Fin 3) q) :=
by
  refine ld_unit_apply (S := S1x3x1024) (Val := Elt Ideal) (e := .f32) x2 _ _ _ _ _ fun a => ?_
  match a with
  | ⟨0, _⟩ => rfl
  | ⟨1, _⟩ => rfl
  | ⟨2, _⟩ => show q.val = 0 + q.val; omega
theorem ky_apply (q : Fin 1024) : ky (F := Ideal) x2 (ix3 (0 : Fin 1) (0 : Fin 1) q) = x2 (ix3 (0 : Fin 1) (1 : Fin 3) q) :=
by
  refine ld_unit_apply (S := S1x3x1024) (Val := Elt Ideal) (e := .f32) x2 _ _ _ _ _ fun a => ?_
  match a with
  | ⟨0, _⟩ => rfl
  | ⟨1, _⟩ => rfl
  | ⟨2, _⟩ => show q.val = 0 + q.val; omega
theorem kz_apply (q : Fin 1024) : kz (F := Ideal) x2 (ix3 (0 : Fin 1) (0 : Fin 1) q) = x2 (ix3 (0 : Fin 1) (2 : Fin 3) q) :=
by
  refine ld_unit_apply (S := S1x3x1024) (Val := Elt Ideal) (e := .f32) x2 _ _ _ _ _ fun a => ?_
  match a with
  | ⟨0, _⟩ => rfl
  | ⟨1, _⟩ => rfl
  | ⟨2, _⟩ => show q.val = 0 + q.val; omega

/-- A query column repeated along the rows less a key row repeated down the columns, at (p, q): the query's entry of row
    p less the key's entry of column q. -/
theorem diff_apply (vq : FVec Ideal S1x512x1 .f32) (vk : FVec Ideal S1x1x1024 .f32)
    (h1 : S1x512x1.ShapeCasts S512x1) (h2 : S1x1x1024.ShapeCasts S1x1024) (h3 : S512x1.Broadcasts S512x1024)
    (h4 : S1x1024.Broadcasts S512x1024) (p : Fin 512) (q : Fin 1024) :
    subf (F := Ideal) (φ := .f32) (broadcastTo S512x1024 (shapeCast S512x1 vq h1) h3) (broadcastTo S512x1024 (shapeCast S1x1024 vk h2) h4) (ix2 p q)
      = vq (ix3 (0 : Fin 1) p (0 : Fin 1)) - vk (ix3 (0 : Fin 1) (0 : Fin 1) q) :=
  congrArg₂ (· - ·)
    ((Cert.Columns.broadcastTo_a1_ab_apply _ h3 p q).trans (shapeCast_1ab_ab_apply vq h1 p 0))
    ((broadcastTo_1b_ab_apply _ h4 p q).trans (shapeCast_1ab_ab_apply vk h2 0 q))

/-- The difference of query p and key q along axis a of the two blocks. -/
def bdiff (a : Fin 3) (p : Fin 512) (q : Fin 1024) : EReal := x0 (ix3 (0 : Fin 1) p a) - x2 (ix3 (0 : Fin 1) a q)

theorem pay11_apply (p : Fin 512) (q : Fin 1024) : k0_pay11 (F := Ideal) (qx x0) (kx x2) (ix2 p q) = bdiff x0 x2 0 p q := by
  unfold k0_pay11 bdiff
  exact (diff_apply _ _ _ _ _ _ p q).trans (congrArg₂ (· - ·) (qx_apply x0 p) (kx_apply x2 q))
theorem pay12_apply (p : Fin 512) (q : Fin 1024) : k0_pay12 (F := Ideal) (qy x0) (ky x2) (ix2 p q) = bdiff x0 x2 1 p q := by
  unfold k0_pay12 bdiff
  exact (diff_apply _ _ _ _ _ _ p q).trans (congrArg₂ (· - ·) (qy_apply x0 p) (ky_apply x2 q))
theorem pay13_apply (p : Fin 512) (q : Fin 1024) : k0_pay13 (F := Ideal) (qz x0) (kz x2) (ix2 p q) = bdiff x0 x2 2 p q := by
  unfold k0_pay13 bdiff
  exact (diff_apply _ _ _ _ _ _ p q).trans (congrArg₂ (· - ·) (qz_apply x0 p) (kz_apply x2 q))

/-- Query p's push from key q along axis a, of the two blocks. -/
def bpush (a : Fin 3) (p : Fin 512) (q : Fin 1024) : EReal :=
  penalty (x1 (ix3 (0 : Fin 1) p (0 : Fin 1))) (x3 (ix3 (0 : Fin 1) (0 : Fin 1) q))
      (dist2 (bdiff x0 x2 0 p q) (bdiff x0 x2 1 p q) (bdiff x0 x2 2 p q)) * clip (bdiff x0 x2 a p q)

/-- The penalties at (p, q). -/
theorem pens_apply (p : Fin 512) (q : Fin 1024) :
    pens (F := Ideal) x0 x1 x2 x3 (ix2 p q) = penalty (x1 (ix3 (0 : Fin 1) p (0 : Fin 1))) (x3 (ix3 (0 : Fin 1) (0 : Fin 1) q))
      (dist2 (bdiff x0 x2 0 p q) (bdiff x0 x2 1 p q) (bdiff x0 x2 2 p q)) := by
  unfold pens k0_pay16 k0_pay14 k0_pay15 k0_pay9 k0_pay10 penalty dist2
  refine congrArg₂ max (congrArg₂ (· - ·) (congrArg₂ max rfl (congrArg₂ (· + ·) ?_ ?_)) (congrArg Ideal.sqrt ?_)) rfl
  · exact (Cert.Columns.broadcastTo_a1_ab_apply _ _ p q).trans (shapeCast_1ab_ab_apply x1 _ p 0)
  · exact (broadcastTo_1b_ab_apply _ _ p q).trans (shapeCast_1ab_ab_apply x3 _ 0 q)
  · exact congrArg₂ (· + ·) (congrArg₂ (· + ·)
      (congrArg₂ (· * ·) (pay11_apply x0 x2 p q) (pay11_apply x0 x2 p q))
      (congrArg₂ (· * ·) (pay12_apply x0 x2 p q) (pay12_apply x0 x2 p q)))
      (congrArg₂ (· * ·) (pay13_apply x0 x2 p q) (pay13_apply x0 x2 p q))

/-- The clipped difference along the third axis at (p, q). -/
theorem pay17_apply (p : Fin 512) (q : Fin 1024) :
    k0_pay17 (F := Ideal) (k0_pay13 (qz x0) (kz x2)) (ix2 p q) = clip (bdiff x0 x2 2 p q) := by
  unfold k0_pay17 clip
  exact congrArg₂ min rfl (congrArg₂ max rfl (pay13_apply x0 x2 p q))

/-- The zero column at any entry is the zero constant. -/
theorem zeroCol_apply (p : Fin 512) (u : Fin 1) : zeroCol (F := Ideal) (ix2 p u) = zeroW := by
  unfold zeroCol k0_pay6
  exact congrFun (shapeCast_self _ _) (ix2 p u)

/-- The first axis's step at row p: the running column there plus the sum over the key block of the pushes on p. -/
theorem stepX_apply (acc : FVec Ideal S512x1 .f32) (p : Fin 512) (u : Fin 1) :
    stepX (F := Ideal) x0 x1 x2 x3 acc (ix2 p u) = acc (ix2 p u) + ∑ q : Fin 1024, bpush x0 x1 x2 x3 0 p q := by
  unfold stepX k0_pay18
  refine (congrFun (shapeCast_self _ _) (ix2 p u)).trans ?_
  refine congrArg₂ (· + ·) rfl ?_
  refine (Cert.Columns.keepdimsSum_apply _ _ _ _ _ _ p u).trans (Finset.sum_congr rfl fun q _ => ?_)
  unfold bpush
  exact congrArg₂ (· * ·) (pens_apply x0 x1 x2 x3 p q) (congrArg₂ min rfl (congrArg₂ max rfl (pay11_apply x0 x2 p q)))

/-- The second axis's. -/
theorem stepY_apply (acc : FVec Ideal S512x1 .f32) (p : Fin 512) (u : Fin 1) :
    stepY (F := Ideal) x0 x1 x2 x3 acc (ix2 p u) = acc (ix2 p u) + ∑ q : Fin 1024, bpush x0 x1 x2 x3 1 p q := by
  unfold stepY k0_pay19
  refine (congrFun (shapeCast_self _ _) (ix2 p u)).trans ?_
  refine congrArg₂ (· + ·) rfl ?_
  refine (Cert.Columns.keepdimsSum_apply _ _ _ _ _ _ p u).trans (Finset.sum_congr rfl fun q _ => ?_)
  unfold bpush
  exact congrArg₂ (· * ·) (pens_apply x0 x1 x2 x3 p q) (congrArg₂ min rfl (congrArg₂ max rfl (pay12_apply x0 x2 p q)))

/-- The third axis's. -/
theorem stepZ_apply (acc : FVec Ideal S512x1 .f32) (p : Fin 512) (u : Fin 1) :
    stepZ (F := Ideal) x0 x1 x2 x3 acc (ix2 p u) = acc (ix2 p u) + ∑ q : Fin 1024, bpush x0 x1 x2 x3 2 p q := by
  unfold stepZ k0_pay1
  refine (congrFun (shapeCast_self _ _) (ix2 p u)).trans ?_
  refine congrArg₂ (· + ·) rfl ?_
  refine (Cert.Columns.keepdimsSum_apply _ _ _ _ _ _ p u).trans (Finset.sum_congr rfl fun q _ => ?_)
  unfold bpush
  exact congrArg₂ (· * ·) (pens_apply x0 x1 x2 x3 p q) (pay17_apply x0 x2 p q)

/-- The stored column of the first axis at row p: the coordinate plus (0.1 · total) · 2⁻¹². -/
theorem outX_apply (tot : FVec Ideal S512x1 .f32) (p : Fin 512) :
    outX (F := Ideal) x0 tot (ix3 (0 : Fin 1) p (0 : Fin 1)) = x0 (ix3 (0 : Fin 1) p (0 : Fin 3)) + (tenthW * tot (ix2 p (0 : Fin 1))) * invCountW := by
  unfold outX k0_pay3
  refine (shapeCast_ab_1ab_apply _ _ 0 p 0).trans ?_
  exact congrArg₂ (· + ·) ((shapeCast_1ab_ab_apply _ _ p 0).trans (qx_apply x0 p)) rfl

theorem outY_apply (tot : FVec Ideal S512x1 .f32) (p : Fin 512) :
    outY (F := Ideal) x0 tot (ix3 (0 : Fin 1) p (0 : Fin 1)) = x0 (ix3 (0 : Fin 1) p (1 : Fin 3)) + (tenthW * tot (ix2 p (0 : Fin 1))) * invCountW := by
  unfold outY k0_pay4
  refine (shapeCast_ab_1ab_apply _ _ 0 p 0).trans ?_
  exact congrArg₂ (· + ·) ((shapeCast_1ab_ab_apply _ _ p 0).trans (qy_apply x0 p)) rfl

theorem outZ_apply (tot : FVec Ideal S512x1 .f32) (p : Fin 512) :
    outZ (F := Ideal) x0 tot (ix3 (0 : Fin 1) p (0 : Fin 1)) = x0 (ix3 (0 : Fin 1) p (2 : Fin 3)) + (tenthW * tot (ix2 p (0 : Fin 1))) * invCountW := by
  unfold outZ k0_pay2 k0_pay5
  refine (shapeCast_ab_1ab_apply _ _ 0 p 0).trans ?_
  exact congrArg₂ (· + ·) ((shapeCast_1ab_ab_apply _ _ p 0).trans (qz_apply x0 p)) rfl

/-- Entry (0, p, a) of the block is row p of the local column of the rectangle at column a. -/
theorem col_emb (a : Fin 3) (n : Nat) (hn : a.val = n) (inb : ∀ ax, (![0, 0, n] : Fin 3 → Nat) ax + S1x512x1.size ax ≤ S1x512x3.size ax) (p : Fin 512) :
    (ix3 (0 : Fin 1) p a : S1x512x3.Idx) = (Rect.unit (s := S1x512x3) ![0, 0, n] S1x512x1.size inb).emb (ix3 (0 : Fin 1) p (0 : Fin 1)) :=
  funext fun ax => Fin.ext (by
    match ax with
    | ⟨0, _⟩ => rfl
    | ⟨1, _⟩ => show p.val = 0 + 1 * p.val; omega
    | ⟨2, _⟩ => show a.val = n + 1 * 0; omega)

/-- Entry (0, p, a) is outside the rectangle at another column n. -/
theorem col_not_mem (a : Fin 3) (n : Nat) (h : a.val ≠ n) (inb : ∀ ax, (![0, 0, n] : Fin 3 → Nat) ax + S1x512x1.size ax ≤ S1x512x3.size ax) (p : Fin 512) :
    (ix3 (0 : Fin 1) p a : S1x512x3.Idx) ∉ (Rect.unit (s := S1x512x3) ![0, 0, n] S1x512x1.size inb).set := by
  rw [Rect.mem_set_unit]
  intro hm
  have h2 := hm (⟨2, by decide⟩ : Fin S1x512x3.rank)
  have h3 : n ≤ a.val ∧ a.val < n + 1 := h2
  omega

/-- The stored block at (0, p, a): the coordinate plus (0.1 · the axis's total at row p) · 2⁻¹². -/
theorem outBlock_apply_0 (tx ty tz : FVec Ideal S512x1 .f32) (p : Fin 512) :
    outBlock (F := Ideal) x0 tx ty tz (ix3 (0 : Fin 1) p (0 : Fin 3)) = x0 (ix3 (0 : Fin 1) p (0 : Fin 3)) + (tenthW * tx (ix2 p (0 : Fin 1))) * invCountW := by
  unfold outBlock
  refine (View.canon_cons_of_not_mem _ _ ?_).trans ((View.canon_cons_of_not_mem _ _ ?_).trans ?_)
  · exact col_not_mem 0 2 (by decide) inb_S1x512x3_S1x512x1_0_0_2 p
  · exact col_not_mem 0 1 (by decide) inb_S1x512x3_S1x512x1_0_0_1 p
  · exact ((congrArg _ (col_emb 0 0 rfl inb_S1x512x3_S1x512x1_0_0_0 p)).trans (View.canon_cons_emb _ _ _ _)).trans (outX_apply x0 tx p)

theorem outBlock_apply_1 (tx ty tz : FVec Ideal S512x1 .f32) (p : Fin 512) :
    outBlock (F := Ideal) x0 tx ty tz (ix3 (0 : Fin 1) p (1 : Fin 3)) = x0 (ix3 (0 : Fin 1) p (1 : Fin 3)) + (tenthW * ty (ix2 p (0 : Fin 1))) * invCountW := by
  unfold outBlock
  refine (View.canon_cons_of_not_mem _ _ ?_).trans ?_
  · exact col_not_mem 1 2 (by decide) inb_S1x512x3_S1x512x1_0_0_2 p
  · exact ((congrArg _ (col_emb 1 1 rfl inb_S1x512x3_S1x512x1_0_0_1 p)).trans (View.canon_cons_emb _ _ _ _)).trans (outY_apply x0 ty p)

theorem outBlock_apply_2 (tx ty tz : FVec Ideal S512x1 .f32) (p : Fin 512) :
    outBlock (F := Ideal) x0 tx ty tz (ix3 (0 : Fin 1) p (2 : Fin 3)) = x0 (ix3 (0 : Fin 1) p (2 : Fin 3)) + (tenthW * tz (ix2 p (0 : Fin 1))) * invCountW := by
  unfold outBlock
  exact ((congrArg _ (col_emb 2 2 rfl inb_S1x512x3_S1x512x1_0_0_2 p)).trans (View.canon_cons_emb _ _ _ _)).trans (outZ_apply x0 tz p)

end Cert.KernelIdeal.Body

end
-- ==== Proof.Cases.lean ====
/-
  What each kind of grid point leaves behind, as the steps of one point's arithmetic.

  The grid walks, for each batch and each block of 512 query points, the four blocks of 1024 key points in order. At the
  first key block the body zeroes the three running columns and then takes one step on each; at the two middle key blocks
  it takes one step on each from what the point before left; at the last key block it takes the step and then stores
  the block of results from the three totals. Here the contents the generated runs found for each of these three kinds of
  point are identified with those steps, at any reading of the floats.
-/
import proofs.«178476_j67714454389373_2_alg».proof.Proof.Gen.KernelIdeal.Frame
import proofs.«178476_j67714454389373_2_alg».proof.Proof.Body
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen Cert.KernelIdeal.Body

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first key block, running column 0 ends as one step from the zero column. -/
theorem first_0 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S1x512x3 .f32) (x1 : Vec F S1x512x1 .f32) (x2 : Vec F S1x3x1024 .f32) (x3 : Vec F S1x1x1024 .f32) :
    sout0_A_0 c i arg3 harg3 arg4 harg4 arg5 harg5 arg6 harg6 arg7 harg7 arg8 harg8 arg9 harg9 arg10 harg10 hc0 hc1 x0 x1 x2 x3 = stepX x0 x1 x2 x3 zeroCol := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a middle key block, running column 0 ends as one step from what it held. -/
theorem middle_0 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S1x512x3 .f32) (x1 : Vec F S1x512x1 .f32) (x2 : Vec F S1x3x1024 .f32) (x3 : Vec F S1x1x1024 .f32) (xs0 xs1 xs2 : Vec F S512x1 .f32) :
    sout0_B_0 c i arg3 harg3 arg4 harg4 arg5 harg5 arg6 harg6 arg7 harg7 arg8 harg8 arg9 harg9 arg10 harg10 hc0 hc1 x0 x1 x2 x3 xs0 xs1 xs2 = stepX x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a last key block too. -/
theorem last_0 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x3 .f32) (x1 : Vec F S1x512x1 .f32) (x2 : Vec F S1x3x1024 .f32) (x3 : Vec F S1x1x1024 .f32) (xs0 xs1 xs2 : Vec F S512x1 .f32) :
    sout0_C_0 c i arg3 harg3 arg4 harg4 arg5 harg5 arg6 harg6 arg7 harg7 arg8 harg8 arg9 harg9 arg10 harg10 hc0 hc1 x0 x1 x2 x3 xs0 xs1 xs2 = stepX x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a first key block, running column 1 ends as one step from the zero column. -/
theorem first_1 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S1x512x3 .f32) (x1 : Vec F S1x512x1 .f32) (x2 : Vec F S1x3x1024 .f32) (x3 : Vec F S1x1x1024 .f32) :
    sout0_A_1 c i arg3 harg3 arg4 harg4 arg5 harg5 arg6 harg6 arg7 harg7 arg8 harg8 arg9 harg9 arg10 harg10 hc0 hc1 x0 x1 x2 x3 = stepY x0 x1 x2 x3 zeroCol := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a middle key block, running column 1 ends as one step from what it held. -/
theorem middle_1 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S1x512x3 .f32) (x1 : Vec F S1x512x1 .f32) (x2 : Vec F S1x3x1024 .f32) (x3 : Vec F S1x1x1024 .f32) (xs0 xs1 xs2 : Vec F S512x1 .f32) :
    sout0_B_1 c i arg3 harg3 arg4 harg4 arg5 harg5 arg6 harg6 arg7 harg7 arg8 harg8 arg9 harg9 arg10 harg10 hc0 hc1 x0 x1 x2 x3 xs0 xs1 xs2 = stepY x0 x1 x2 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a last key block too. -/
theorem last_1 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x3 .f32) (x1 : Vec F S1x512x1 .f32) (x2 : Vec F S1x3x1024 .f32) (x3 : Vec F S1x1x1024 .f32) (xs0 xs1 xs2 : Vec F S512x1 .f32) :
    sout0_C_1 c i arg3 harg3 arg4 harg4 arg5 harg5 arg6 harg6 arg7 harg7 arg8 harg8 arg9 harg9 arg10 harg10 hc0 hc1 x0 x1 x2 x3 xs0 xs1 xs2 = stepY x0 x1 x2 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a first key block, running column 2 ends as one step from the zero column. -/
theorem first_2 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S1x512x3 .f32) (x1 : Vec F S1x512x1 .f32) (x2 : Vec F S1x3x1024 .f32) (x3 : Vec F S1x1x1024 .f32) :
    sout0_A_2 c i arg3 harg3 arg4 harg4 arg5 harg5 arg6 harg6 arg7 harg7 arg8 harg8 arg9 harg9 arg10 harg10 hc0 hc1 x0 x1 x2 x3 = stepZ x0 x1 x2 x3 zeroCol := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a middle key block, running column 2 ends as one step from what it held. -/
theorem middle_2 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S1x512x3 .f32) (x1 : Vec F S1x512x1 .f32) (x2 : Vec F S1x3x1024 .f32) (x3 : Vec F S1x1x1024 .f32) (xs0 xs1 xs2 : Vec F S512x1 .f32) :
    sout0_B_2 c i arg3 harg3 arg4 harg4 arg5 harg5 arg6 harg6 arg7 harg7 arg8 harg8 arg9 harg9 arg10 harg10 hc0 hc1 x0 x1 x2 x3 xs0 xs1 xs2 = stepZ x0 x1 x2 x3 xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a last key block too. -/
theorem last_2 (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x3 .f32) (x1 : Vec F S1x512x1 .f32) (x2 : Vec F S1x3x1024 .f32) (x3 : Vec F S1x1x1024 .f32) (xs0 xs1 xs2 : Vec F S512x1 .f32) :
    sout0_C_2 c i arg3 harg3 arg4 harg4 arg5 harg5 arg6 harg6 arg7 harg7 arg8 harg8 arg9 harg9 arg10 harg10 hc0 hc1 x0 x1 x2 x3 xs0 xs1 xs2 = stepZ x0 x1 x2 x3 xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

/-- At a last key block the output's buffer ends as the block of results from the three totals after the step. -/
theorem last_out (c : Dev nD) (i : grid0.Coords) (arg3 : Memref sig .tc .vmem S1x512x3 .f32) (harg3 : arg3.IsWhole) (arg4 : Memref sig .tc .vmem S1x512x1 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S1x512x3 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x3 .f32) (x1 : Vec F S1x512x1 .f32) (x2 : Vec F S1x3x1024 .f32) (x3 : Vec F S1x1x1024 .f32) (xs0 xs1 xs2 : Vec F S512x1 .f32) :
    out0_C_4 c i arg3 harg3 arg4 harg4 arg5 harg5 arg6 harg6 arg7 harg7 arg8 harg8 arg9 harg9 arg10 harg10 hc0 hc1 x0 x1 x2 x3 xs0 xs1 xs2
      = outBlock x0 (stepX x0 x1 x2 x3 xs0) (stepY x0 x1 x2 x3 xs1) (stepZ x0 x1 x2 x3 xs2) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readCov_unit_zero (S := S512x1) _ hz2, View.readAt_eq_ld, harg3.read_unread, harg4.read_unread, harg5.read_unread, harg6.read_unread,
    harg8.read_unread, harg9.read_unread, harg10.read_unread,
    View.ld_unit_zero (S := S512x1) hz2, View.ld_unit_zero (S := S1x512x1) hz3, View.ld_unit_zero (S := S1x1x1024) hz3]
  rfl

end Cert.KernelIdeal.Cases

end
-- ==== Proof.Blocks.lean ====
/-
  The blocks a grid point holds, as entries of the two argument arrays.

  The grid's point number 32·b + 4·i₀ + k₀ works on batch b, on the query points 512·i₀ … 512·i₀ + 511 and on the key
  points 1024·k₀ … 1024·k₀ + 1023. Its query windows read the coordinates and the radii (as a column) of those query
  points; its key windows read the transposed coordinates and the radii (as a row) of those key points. The arrays the
  key windows and the radius windows read are made by the host before the region: the coordinates with their last two
  axes swapped, and the radii with a unit axis added behind or in front.
-/
import proofs.«178476_j67714454389373_2_alg».proof.Proof.Gen.KernelIdeal.Frame
import proofs.«178476_j67714454389373_2_alg».proof.Proof.Body
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.Steric

/-- Query point p of query block i₀. -/
def rowPos (i0 : Fin 8) (p : Fin 512) : Fin 4096 := ⟨512 * i0.val + p.val, by have := i0.isLt; have := p.isLt; omega⟩

/-- The windows' block indices at a grid point, decided over the 128 points: the batch is the point number over 32, the
    query block its quotient by 4 modulo 8, the key block its remainder modulo 4. -/
theorem idx_facts : ∀ t : Fin cfg0.N,
    win0_0.index t (0 : Fin 3) = t.val / 32 ∧ win0_0.index t (1 : Fin 3) = t.val / 4 % 8 ∧ win0_0.index t (2 : Fin 3) = 0
    ∧ win0_1.index t (0 : Fin 3) = t.val / 32 ∧ win0_1.index t (1 : Fin 3) = t.val / 4 % 8 ∧ win0_1.index t (2 : Fin 3) = 0
    ∧ win0_2.index t (0 : Fin 3) = t.val / 32 ∧ win0_2.index t (1 : Fin 3) = 0 ∧ win0_2.index t (2 : Fin 3) = t.val % 4
    ∧ win0_3.index t (0 : Fin 3) = t.val / 32 ∧ win0_3.index t (1 : Fin 3) = 0 ∧ win0_3.index t (2 : Fin 3) = t.val % 4
    ∧ win0_4.index t (0 : Fin 3) = t.val / 32 ∧ win0_4.index t (1 : Fin 3) = t.val / 4 % 8 ∧ win0_4.index t (2 : Fin 3) = 0 :=
  (by decide +kernel : ∀ t : Fin grid0.N, _)

/-! ## The arrays the host makes before the region -/

section Layout
variable {α : Type}

/-- The radii with a unit axis behind, at (b, i, ·): the radius of point i. -/
theorem radii_col (x : S4x4096.Idx → α) (h : S4x4096.BroadcastsInDim S4x4096x1 (![0, 1] : Fin 2 → Fin S4x4096x1.rank))
    (b : Fin 4) (i : Fin 4096) (u : Fin 1) : broadcastInDim S4x4096x1 ![0, 1] h x (ix3 b i u) = x (ix2 b i) :=
  broadcastInDim_apply _ h x _ _ fun a => by
    match a with
    | ⟨0, _⟩ => show b.val = if (4 : Nat) = 1 then 0 else b.val; rw [if_neg (by decide)]
    | ⟨1, _⟩ => show i.val = if (4096 : Nat) = 1 then 0 else i.val; rw [if_neg (by decide)]

/-- The radii with a unit axis in the middle, at (b, ·, k): the radius of point k. -/
theorem radii_row (x : S4x4096.Idx → α) (h : S4x4096.BroadcastsInDim S4x1x4096 (![0, 2] : Fin 2 → Fin S4x1x4096.rank))
    (b : Fin 4) (u : Fin 1) (k : Fin 4096) : broadcastInDim S4x1x4096 ![0, 2] h x (ix3 b u k) = x (ix2 b k) :=
  broadcastInDim_apply _ h x _ _ fun a => by
    match a with
    | ⟨0, _⟩ => show b.val = if (4 : Nat) = 1 then 0 else b.val; rw [if_neg (by decide)]
    | ⟨1, _⟩ => show k.val = if (4096 : Nat) = 1 then 0 else k.val; rw [if_neg (by decide)]

end Layout

variable {F : FTy → Type} [FloatOps F]
variable (m : (ℓ : Loc nD τ sig) → Buf (Elt F) ℓ)

theorem V_keys (c : Dev nD) : (V m c main_v0 : S4x3x4096.Idx → Elt F .f32)
    = transpose S4x3x4096 [0, 2, 1] (m ((c : Thread nD τ).loc main_arg0)) transposes_S4x4096x3_S4x3x4096_0_2_1 := by
  dsimp only [Gen.V, Gen.hostOps0]; after_results

theorem V_radii_col (c : Dev nD) : (V m c main_v1 : S4x4096x1.Idx → Elt F .f32)
    = broadcastInDim S4x4096x1 ![0, 1] bcast_S4x4096_S4x4096x1_0_1 (m ((c : Thread nD τ).loc main_arg1)) := by
  dsimp only [Gen.V, Gen.hostOps0]; after_results

theorem V_radii_row (c : Dev nD) : (V m c main_v2 : S4x1x4096.Idx → Elt F .f32)
    = broadcastInDim S4x1x4096 ![0, 2] bcast_S4x4096_S4x1x4096_0_2 (m ((c : Thread nD τ).loc main_arg1)) := by
  dsimp only [Gen.V, Gen.hostOps0]; after_results

/-! ## The four input blocks at a point -/

/-- The query coordinates' block: row p, column a is the coordinate a of query point 512·i₀ + p of batch b. -/
theorem query_coords (c : Dev nD) (t : Fin cfg0.N) (b : Fin 4) (i0 : Fin 8) (k0 : Fin 4)
    (ht : t.val = 32 * b.val + 4 * i0.val + k0.val) (p : Fin 512) (a : Fin 3) :
    (iblk m c 0 t : Vec F S1x512x3 .f32) (ix3 (0 : Fin 1) p a) = m ((c : Thread nD τ).loc main_arg0) (ix3 b (rowPos i0 p) a) := by
  unfold iblk
  rw [View.read_apply]
  show V m c main_arg0 _ = _
  rw [V_main_arg0]
  refine congrArg _ (funext fun ax => Fin.ext ?_)
  obtain ⟨e0, e1, e2, -⟩ := idx_facts t
  have := b.isLt; have := i0.isLt; have := k0.isLt
  match ax with
  | ⟨0, _⟩ => show win0_0.index t (0 : Fin 3) * 1 + 1 * 0 = b.val; omega
  | ⟨1, _⟩ => show win0_0.index t (1 : Fin 3) * 512 + 1 * p.val = 512 * i0.val + p.val; omega
  | ⟨2, _⟩ => show win0_0.index t (2 : Fin 3) * 3 + 1 * a.val = a.val; omega

/-- The query radii's block: row p is the radius of query point 512·i₀ + p. -/
theorem query_radii (c : Dev nD) (t : Fin cfg0.N) (b : Fin 4) (i0 : Fin 8) (k0 : Fin 4)
    (ht : t.val = 32 * b.val + 4 * i0.val + k0.val) (p : Fin 512) :
    (iblk m c 1 t : Vec F S1x512x1 .f32) (ix3 (0 : Fin 1) p (0 : Fin 1)) = m ((c : Thread nD τ).loc main_arg1) (ix2 b (rowPos i0 p)) := by
  unfold iblk
  rw [View.read_apply]
  show (V m c main_v1 : S4x4096x1.Idx → Elt F .f32) _ = _
  rw [V_radii_col]
  refine Eq.trans (congrArg _ (funext fun ax => Fin.ext ?_)) (radii_col _ _ b (rowPos i0 p) (0 : Fin 1))
  obtain ⟨-, -, -, e0, e1, e2, -⟩ := idx_facts t
  have := b.isLt; have := i0.isLt; have := k0.isLt
  match ax with
  | ⟨0, _⟩ => show win0_1.index t (0 : Fin 3) * 1 + 1 * 0 = b.val; omega
  | ⟨1, _⟩ => show win0_1.index t (1 : Fin 3) * 512 + 1 * p.val = 512 * i0.val + p.val; omega
  | ⟨2, _⟩ => show win0_1.index t (2 : Fin 3) * 1 + 1 * 0 = 0; omega

/-- The key coordinates' block: row a, column q is the coordinate a of key point 1024·k₀ + q of batch b. -/
theorem key_coords (c : Dev nD) (t : Fin cfg0.N) (b : Fin 4) (i0 : Fin 8) (k0 : Fin 4)
    (ht : t.val = 32 * b.val + 4 * i0.val + k0.val) (a : Fin 3) (q : Fin 1024) :
    (iblk m c 2 t : Vec F S1x3x1024 .f32) (ix3 (0 : Fin 1) a q) = m ((c : Thread nD τ).loc main_arg0) (ix3 b (chunkPos k0 q) a) := by
  unfold iblk
  rw [View.read_apply]
  show (V m c main_v0 : S4x3x4096.Idx → Elt F .f32) _ = _
  rw [V_keys]
  refine Eq.trans (congrArg _ (funext fun ax => Fin.ext ?_)) (transpose_ix3_021_apply _ _ b a (chunkPos k0 q))
  obtain ⟨-, -, -, -, -, -, e0, e1, e2, -⟩ := idx_facts t
  have := b.isLt; have := i0.isLt; have := k0.isLt
  match ax with
  | ⟨0, _⟩ => show win0_2.index t (0 : Fin 3) * 1 + 1 * 0 = b.val; omega
  | ⟨1, _⟩ => show win0_2.index t (1 : Fin 3) * 3 + 1 * a.val = a.val; omega
  | ⟨2, _⟩ => show win0_2.index t (2 : Fin 3) * 1024 + 1 * q.val = 1024 * k0.val + q.val; omega

/-- The key radii's block: column q is the radius of key point 1024·k₀ + q. -/
theorem key_radii (c : Dev nD) (t : Fin cfg0.N) (b : Fin 4) (i0 : Fin 8) (k0 : Fin 4)
    (ht : t.val = 32 * b.val + 4 * i0.val + k0.val) (q : Fin 1024) :
    (iblk m c 3 t : Vec F S1x1x1024 .f32) (ix3 (0 : Fin 1) (0 : Fin 1) q) = m ((c : Thread nD τ).loc main_arg1) (ix2 b (chunkPos k0 q)) := by
  unfold iblk
  rw [View.read_apply]
  show (V m c main_v2 : S4x1x4096.Idx → Elt F .f32) _ = _
  rw [V_radii_row]
  refine Eq.trans (congrArg _ (funext fun ax => Fin.ext ?_)) (radii_row _ _ b (0 : Fin 1) (chunkPos k0 q))
  obtain ⟨-, -, -, -, -, -, -, -, -, e0, e1, e2, -⟩ := idx_facts t
  have := b.isLt; have := i0.isLt; have := k0.isLt
  match ax with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 1024 + 1 * q.val = 1024 * k0.val + q.val; omega

end Cert.KernelIdeal.Blocks

end
-- ==== Proof.Totals.lean ====
/-
  What the three running columns hold after each grid point, and what the last key block's point writes back.

  The running column of an axis is reset at a first key block (point number ≡ 0 mod 4) and takes one step at every
  point, so after the point of key block k₀ it holds, at row p, the zero constant plus the sums over key blocks
  0 … k₀ of the pushes on query point p. After the last key block that is the running total of four chunks of 1024
  key points: the sum over all 4096 points of the batch. The block written back there is the coordinate plus
  (0.1 · that sum) · 2⁻¹²: the steric push of the arguments, read through the block.
-/
import proofs.«178476_j67714454389373_2_alg».proof.Proof.Gen.KernelIdeal.Value
import proofs.«178476_j67714454389373_2_alg».proof.Proof.Cases
import proofs.«178476_j67714454389373_2_alg».proof.Proof.Blocks

noncomputable section

open scoped BigOperators
open Idealize.ShloMosaic Idealize.ShloMosaic.TcCoe Idealize.SL.Sem Idealize.ShloMosaic.ValueIdx

namespace Cert.KernelIdeal.Totals

open Cert.KernelIdeal Cert.KernelIdeal.Gen Cert.KernelIdeal.Body Cert.KernelIdeal.Cases Cert.KernelIdeal.Blocks Cert.Steric

/-! ## After each point, at any reading of the floats -/

section AnyReading
variable {F : FTy → Type} [FloatOps F]
variable (m : (ℓ : Loc nD τ sig) → Buf (Elt F) ℓ)

/-- After a first key block's point, running column 0 is one step from the zero column. -/
theorem after_first_0 (c : Dev nD) (s : Fin cfg0.N) (h0 : s.val % 4 = 0) (h1 : ¬s.val % 4 = 3) :
    (outsAt0 m c s.val s.isLt).2.1 = stepX (iblk m c 0 s) (iblk m c 1 s) (iblk m c 2 s) (iblk m c 3 s) zeroCol := by
  rw [outsAt0_A m c s h0 h1]
  dsimp only
  exact first_0 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) ((hcond0_0 s).mpr h0) (fun h => h1 ((hcond0_1 s).mp h)) (iblk m c 0 s) (iblk m c 1 s) (iblk m c 2 s) (iblk m c 3 s)

/-- After a middle key block's point, one step from what the point before left. -/
theorem after_middle_0 (c : Dev nD) (s : Fin cfg0.N) (h0 : ¬s.val % 4 = 0) (h1 : ¬s.val % 4 = 3) :
    (outsAt0 m c s.val s.isLt).2.1 = stepX (iblk m c 0 s) (iblk m c 1 s) (iblk m c 2 s) (iblk m c 3 s) (outsAt0 m c (s.val - 1) (Nat.lt_of_le_of_lt (Nat.sub_le _ _) s.isLt)).2.1 := by
  rw [outsAt0_B m c s h0 h1]
  dsimp only
  exact middle_0 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) (fun h => h0 ((hcond0_0 s).mp h)) (fun h => h1 ((hcond0_1 s).mp h)) (iblk m c 0 s) (iblk m c 1 s) (iblk m c 2 s) (iblk m c 3 s)
    (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2

/-- After a last key block's point too. -/
theorem after_last_0 (c : Dev nD) (s : Fin cfg0.N) (h0 : ¬s.val % 4 = 0) (h1 : s.val % 4 = 3) :
    (outsAt0 m c s.val s.isLt).2.1 = stepX (iblk m c 0 s) (iblk m c 1 s) (iblk m c 2 s) (iblk m c 3 s) (outsAt0 m c (s.val - 1) (Nat.lt_of_le_of_lt (Nat.sub_le _ _) s.isLt)).2.1 := by
  rw [outsAt0_C m c s h0 h1]
  dsimp only
  exact last_0 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) (fun h => h0 ((hcond0_0 s).mp h)) ((hcond0_1 s).mpr h1) (iblk m c 0 s) (iblk m c 1 s) (iblk m c 2 s) (iblk m c 3 s)
    (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2

/-- After a first key block's point, running column 1 is one step from the zero column. -/
theorem after_first_1 (c : Dev nD) (s : Fin cfg0.N) (h0 : s.val % 4 = 0) (h1 : ¬s.val % 4 = 3) :
    (outsAt0 m c s.val s.isLt).2.2.1 = stepY (iblk m c 0 s) (iblk m c 1 s) (iblk m c 2 s) (iblk m c 3 s) zeroCol := by
  rw [outsAt0_A m c s h0 h1]
  dsimp only
  exact first_1 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) ((hcond0_0 s).mpr h0) (fun h => h1 ((hcond0_1 s).mp h)) (iblk m c 0 s) (iblk m c 1 s) (iblk m c 2 s) (iblk m c 3 s)

/-- After a middle key block's point, one step from what the point before left. -/
theorem after_middle_1 (c : Dev nD) (s : Fin cfg0.N) (h0 : ¬s.val % 4 = 0) (h1 : ¬s.val % 4 = 3) :
    (outsAt0 m c s.val s.isLt).2.2.1 = stepY (iblk m c 0 s) (iblk m c 1 s) (iblk m c 2 s) (iblk m c 3 s) (outsAt0 m c (s.val - 1) (Nat.lt_of_le_of_lt (Nat.sub_le _ _) s.isLt)).2.2.1 := by
  rw [outsAt0_B m c s h0 h1]
  dsimp only
  exact middle_1 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) (fun h => h0 ((hcond0_0 s).mp h)) (fun h => h1 ((hcond0_1 s).mp h)) (iblk m c 0 s) (iblk m c 1 s) (iblk m c 2 s) (iblk m c 3 s)
    (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2

/-- After a last key block's point too. -/
theorem after_last_1 (c : Dev nD) (s : Fin cfg0.N) (h0 : ¬s.val % 4 = 0) (h1 : s.val % 4 = 3) :
    (outsAt0 m c s.val s.isLt).2.2.1 = stepY (iblk m c 0 s) (iblk m c 1 s) (iblk m c 2 s) (iblk m c 3 s) (outsAt0 m c (s.val - 1) (Nat.lt_of_le_of_lt (Nat.sub_le _ _) s.isLt)).2.2.1 := by
  rw [outsAt0_C m c s h0 h1]
  dsimp only
  exact last_1 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) (fun h => h0 ((hcond0_0 s).mp h)) ((hcond0_1 s).mpr h1) (iblk m c 0 s) (iblk m c 1 s) (iblk m c 2 s) (iblk m c 3 s)
    (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2

/-- After a first key block's point, running column 2 is one step from the zero column. -/
theorem after_first_2 (c : Dev nD) (s : Fin cfg0.N) (h0 : s.val % 4 = 0) (h1 : ¬s.val % 4 = 3) :
    (outsAt0 m c s.val s.isLt).2.2.2 = stepZ (iblk m c 0 s) (iblk m c 1 s) (iblk m c 2 s) (iblk m c 3 s) zeroCol := by
  rw [outsAt0_A m c s h0 h1]
  dsimp only
  exact first_2 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) ((hcond0_0 s).mpr h0) (fun h => h1 ((hcond0_1 s).mp h)) (iblk m c 0 s) (iblk m c 1 s) (iblk m c 2 s) (iblk m c 3 s)

/-- After a middle key block's point, one step from what the point before left. -/
theorem after_middle_2 (c : Dev nD) (s : Fin cfg0.N) (h0 : ¬s.val % 4 = 0) (h1 : ¬s.val % 4 = 3) :
    (outsAt0 m c s.val s.isLt).2.2.2 = stepZ (iblk m c 0 s) (iblk m c 1 s) (iblk m c 2 s) (iblk m c 3 s) (outsAt0 m c (s.val - 1) (Nat.lt_of_le_of_lt (Nat.sub_le _ _) s.isLt)).2.2.2 := by
  rw [outsAt0_B m c s h0 h1]
  dsimp only
  exact middle_2 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) (fun h => h0 ((hcond0_0 s).mp h)) (fun h => h1 ((hcond0_1 s).mp h)) (iblk m c 0 s) (iblk m c 1 s) (iblk m c 2 s) (iblk m c 3 s)
    (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2

/-- After a last key block's point too. -/
theorem after_last_2 (c : Dev nD) (s : Fin cfg0.N) (h0 : ¬s.val % 4 = 0) (h1 : s.val % 4 = 3) :
    (outsAt0 m c s.val s.isLt).2.2.2 = stepZ (iblk m c 0 s) (iblk m c 1 s) (iblk m c 2 s) (iblk m c 3 s) (outsAt0 m c (s.val - 1) (Nat.lt_of_le_of_lt (Nat.sub_le _ _) s.isLt)).2.2.2 := by
  rw [outsAt0_C m c s h0 h1]
  dsimp only
  exact last_2 c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) (fun h => h0 ((hcond0_0 s).mp h)) ((hcond0_1 s).mpr h1) (iblk m c 0 s) (iblk m c 1 s) (iblk m c 2 s) (iblk m c 3 s)
    (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2

/-- After a last key block's point the output's buffer holds the block of results from the three columns after their step. -/
theorem out_last (c : Dev nD) (s : Fin cfg0.N) (h0 : ¬s.val % 4 = 0) (h1 : s.val % 4 = 3) :
    (outsAt0 m c s.val s.isLt).1 = outBlock (iblk m c 0 s) (stepX (iblk m c 0 s) (iblk m c 1 s) (iblk m c 2 s) (iblk m c 3 s) (outsAt0 m c (s.val - 1) (Nat.lt_of_le_of_lt (Nat.sub_le _ _) s.isLt)).2.1)
      (stepY (iblk m c 0 s) (iblk m c 1 s) (iblk m c 2 s) (iblk m c 3 s) (outsAt0 m c (s.val - 1) (Nat.lt_of_le_of_lt (Nat.sub_le _ _) s.isLt)).2.2.1) (stepZ (iblk m c 0 s) (iblk m c 1 s) (iblk m c 2 s) (iblk m c 3 s) (outsAt0 m c (s.val - 1) (Nat.lt_of_le_of_lt (Nat.sub_le _ _) s.isLt)).2.2.2) := by
  rw [outsAt0_C m c s h0 h1]
  dsimp only
  exact last_out c (grid0.coords s) (ms0_0 s) (hs0_0 s) (ms0_1 s) (hs0_1 s) (ms0_2 s) (hs0_2 s) (ms0_3 s) (hs0_3 s) (ms0_4 s) (hs0_4 s) scM0_0 (Memref.isWhole_whole _) scM0_1 (Memref.isWhole_whole _) scM0_2 (Memref.isWhole_whole _) (fun h => h0 ((hcond0_0 s).mp h)) ((hcond0_1 s).mpr h1) (iblk m c 0 s) (iblk m c 1 s) (iblk m c 2 s) (iblk m c 3 s)
    (outsAt0 m c (s.val - 1) (Nat.lt_of_le_of_lt (Nat.sub_le _ _) s.isLt)).2.1 (outsAt0 m c (s.val - 1) (Nat.lt_of_le_of_lt (Nat.sub_le _ _) s.isLt)).2.2.1 (outsAt0 m c (s.val - 1) (Nat.lt_of_le_of_lt (Nat.sub_le _ _) s.isLt)).2.2.2

end AnyReading

end Cert.KernelIdeal.Totals

end
-- ==== Proof.Sums.lean ====
/-
  The totals, at the exact reading: after the last key block the running column of an axis holds, at row p, the sum over
  all 4096 points k of the batch of the push of k on query point p along that axis.
-/
import proofs.«178476_j67714454389373_2_alg».proof.Proof.Totals

noncomputable section

open scoped BigOperators
open Idealize.ShloMosaic Idealize.ShloMosaic.TcCoe Idealize.SL.Sem Idealize.ShloMosaic.ValueIdx

namespace Cert.KernelIdeal.Sums

open Cert.KernelIdeal Cert.KernelIdeal.Gen Cert.KernelIdeal.Body Cert.KernelIdeal.Blocks Cert.KernelIdeal.Totals Cert.Steric

/-- The pushes of two blocks are the pushes of the arrays the blocks are cut from: block row p is array point ri p, block
    column q is array point ck q. -/
theorem bpush_eq (x0 : FVec Ideal S1x512x3 .f32) (x1 : FVec Ideal S1x512x1 .f32) (x2 : FVec Ideal S1x3x1024 .f32)
    (x3 : FVec Ideal S1x1x1024 .f32) (cs : Coords) (rs : Radii) (b : Fin 4) (ri : Fin 512 → Fin 4096) (ck : Fin 1024 → Fin 4096)
    (h0 : ∀ p a, x0 (ix3 (0 : Fin 1) p a) = cs (ix3 b (ri p) a)) (h1 : ∀ p, x1 (ix3 (0 : Fin 1) p (0 : Fin 1)) = rs (ix2 b (ri p)))
    (h2 : ∀ a q, x2 (ix3 (0 : Fin 1) a q) = cs (ix3 b (ck q) a)) (h3 : ∀ q, x3 (ix3 (0 : Fin 1) (0 : Fin 1) q) = rs (ix2 b (ck q)))
    (a : Fin 3) (p : Fin 512) (q : Fin 1024) : bpush x0 x1 x2 x3 a p q = push cs rs b (ri p) (ck q) a := by
  unfold bpush bdiff push sep2
  simp only [h0, h1, h2, h3]

variable (m : (ℓ : Loc nD τ sig) → Buf (Elt Ideal) ℓ)

/-- The two argument arrays on a core. -/
abbrev coords (c : Dev nD) : Coords := m ((c : Thread nD τ).loc main_arg0)
abbrev radii (c : Dev nD) : Radii := m ((c : Thread nD τ).loc main_arg1)

/-- At the point of batch b, query block i₀ and key block k₀, the pushes of the two blocks are the pushes of the arguments. -/
theorem bpush_point (c : Dev nD) (t : Fin cfg0.N) (b : Fin 4) (i0 : Fin 8) (k0 : Fin 4)
    (ht : t.val = 32 * b.val + 4 * i0.val + k0.val) (a : Fin 3) (p : Fin 512) (q : Fin 1024) :
    bpush (iblk m c 0 t) (iblk m c 1 t) (iblk m c 2 t) (iblk m c 3 t) a p q
      = push (coords m c) (radii m c) b (rowPos i0 p) (chunkPos k0 q) a :=
  bpush_eq _ _ _ _ (coords m c) (radii m c) b (rowPos i0) (chunkPos k0) (query_coords m c t b i0 k0 ht) (query_radii m c t b i0 k0 ht)
    (key_coords m c t b i0 k0 ht) (key_radii m c t b i0 k0 ht) a p q

/-- The pushes on point i along axis a from the key points of chunk k₀. -/
def chunkSum (c : Dev nD) (b : Fin 4) (i : Fin 4096) (a : Fin 3) (k0 : Fin 4) : EReal :=
  ∑ q : Fin 1024, push (coords m c) (radii m c) b i (chunkPos k0 q) a

/-- The zero constant plus the first n + 1 of four terms, added in order. -/
def runTo (f : Fin 4 → EReal) : (n : Nat) → n < 4 → EReal
  | 0, _ => zeroW + f 0
  | n + 1, h => runTo f n (Nat.lt_of_succ_lt h) + f ⟨n + 1, h⟩

/-- After the point of key block k₀, running column 0 holds at row p the zero constant plus the chunk sums 0 … k₀. -/
theorem col_0 (c : Dev nD) (b : Fin 4) (i0 : Fin 8) (p : Fin 512) (u : Fin 1) :
    ∀ (n : Nat) (hn : n < 4) (s : Fin cfg0.N), s.val = 32 * b.val + 4 * i0.val + n →
      (outsAt0 m c s.val s.isLt).2.1 (ix2 p u) = runTo (chunkSum m c b (rowPos i0 p) 0) n hn
  | 0, hn, s, hs => by
    have hN : cfg0.N = 128 := N_0
    refine (congrFun (after_first_0 m c s (by omega) (by omega)) (ix2 p u)).trans ?_
    refine (stepX_apply (iblk m c 0 s) (iblk m c 1 s) (iblk m c 2 s) (iblk m c 3 s) zeroCol p u).trans ?_
    exact congrArg₂ (· + ·) (zeroCol_apply p u) (Finset.sum_congr rfl fun q _ => bpush_point m c s b i0 0 hs 0 p q)
  | n + 1, hn, s, hs => by
    have hN : cfg0.N = 128 := N_0
    have hlt : s.val - 1 < cfg0.N := Nat.lt_of_le_of_lt (Nat.sub_le _ _) s.isLt
    have ih := col_0 c b i0 p u n (Nat.lt_of_succ_lt hn) ⟨s.val - 1, hlt⟩ (by show s.val - 1 = _; omega)
    have hstep : (outsAt0 m c s.val s.isLt).2.1 = stepX (iblk m c 0 s) (iblk m c 1 s) (iblk m c 2 s) (iblk m c 3 s) (outsAt0 m c (s.val - 1) (Nat.lt_of_le_of_lt (Nat.sub_le _ _) s.isLt)).2.1 := by
      by_cases h3 : s.val % 4 = 3
      · exact after_last_0 m c s (by omega) h3
      · exact after_middle_0 m c s (by omega) h3
    refine (congrFun hstep (ix2 p u)).trans ?_
    refine (stepX_apply (iblk m c 0 s) (iblk m c 1 s) (iblk m c 2 s) (iblk m c 3 s) (outsAt0 m c (s.val - 1) (Nat.lt_of_le_of_lt (Nat.sub_le _ _) s.isLt)).2.1 p u).trans ?_
    exact congrArg₂ (· + ·) ih (Finset.sum_congr rfl fun q _ => bpush_point m c s b i0 ⟨n + 1, hn⟩ hs 0 p q)

/-- So after the last key block it holds the sum over all 4096 points. -/
theorem total_0 (c : Dev nD) (t : Fin cfg0.N) (b : Fin 4) (i0 : Fin 8) (ht : t.val = 32 * b.val + 4 * i0.val + 3) (p : Fin 512) (u : Fin 1) :
    (outsAt0 m c t.val t.isLt).2.1 (ix2 p u) = ∑ k : Fin 4096, push (coords m c) (radii m c) b (rowPos i0 p) k 0 :=
  (col_0 m c b i0 p u 3 (by decide) t ht).trans (running_chunks fun k => push (coords m c) (radii m c) b (rowPos i0 p) k 0)

/-- After the point of key block k₀, running column 1 holds at row p the zero constant plus the chunk sums 0 … k₀. -/
theorem col_1 (c : Dev nD) (b : Fin 4) (i0 : Fin 8) (p : Fin 512) (u : Fin 1) :
    ∀ (n : Nat) (hn : n < 4) (s : Fin cfg0.N), s.val = 32 * b.val + 4 * i0.val + n →
      (outsAt0 m c s.val s.isLt).2.2.1 (ix2 p u) = runTo (chunkSum m c b (rowPos i0 p) 1) n hn
  | 0, hn, s, hs => by
    have hN : cfg0.N = 128 := N_0
    refine (congrFun (after_first_1 m c s (by omega) (by omega)) (ix2 p u)).trans ?_
    refine (stepY_apply (iblk m c 0 s) (iblk m c 1 s) (iblk m c 2 s) (iblk m c 3 s) zeroCol p u).trans ?_
    exact congrArg₂ (· + ·) (zeroCol_apply p u) (Finset.sum_congr rfl fun q _ => bpush_point m c s b i0 0 hs 1 p q)
  | n + 1, hn, s, hs => by
    have hN : cfg0.N = 128 := N_0
    have hlt : s.val - 1 < cfg0.N := Nat.lt_of_le_of_lt (Nat.sub_le _ _) s.isLt
    have ih := col_1 c b i0 p u n (Nat.lt_of_succ_lt hn) ⟨s.val - 1, hlt⟩ (by show s.val - 1 = _; omega)
    have hstep : (outsAt0 m c s.val s.isLt).2.2.1 = stepY (iblk m c 0 s) (iblk m c 1 s) (iblk m c 2 s) (iblk m c 3 s) (outsAt0 m c (s.val - 1) (Nat.lt_of_le_of_lt (Nat.sub_le _ _) s.isLt)).2.2.1 := by
      by_cases h3 : s.val % 4 = 3
      · exact after_last_1 m c s (by omega) h3
      · exact after_middle_1 m c s (by omega) h3
    refine (congrFun hstep (ix2 p u)).trans ?_
    refine (stepY_apply (iblk m c 0 s) (iblk m c 1 s) (iblk m c 2 s) (iblk m c 3 s) (outsAt0 m c (s.val - 1) (Nat.lt_of_le_of_lt (Nat.sub_le _ _) s.isLt)).2.2.1 p u).trans ?_
    exact congrArg₂ (· + ·) ih (Finset.sum_congr rfl fun q _ => bpush_point m c s b i0 ⟨n + 1, hn⟩ hs 1 p q)

/-- So after the last key block it holds the sum over all 4096 points. -/
theorem total_1 (c : Dev nD) (t : Fin cfg0.N) (b : Fin 4) (i0 : Fin 8) (ht : t.val = 32 * b.val + 4 * i0.val + 3) (p : Fin 512) (u : Fin 1) :
    (outsAt0 m c t.val t.isLt).2.2.1 (ix2 p u) = ∑ k : Fin 4096, push (coords m c) (radii m c) b (rowPos i0 p) k 1 :=
  (col_1 m c b i0 p u 3 (by decide) t ht).trans (running_chunks fun k => push (coords m c) (radii m c) b (rowPos i0 p) k 1)

/-- After the point of key block k₀, running column 2 holds at row p the zero constant plus the chunk sums 0 … k₀. -/
theorem col_2 (c : Dev nD) (b : Fin 4) (i0 : Fin 8) (p : Fin 512) (u : Fin 1) :
    ∀ (n : Nat) (hn : n < 4) (s : Fin cfg0.N), s.val = 32 * b.val + 4 * i0.val + n →
      (outsAt0 m c s.val s.isLt).2.2.2 (ix2 p u) = runTo (chunkSum m c b (rowPos i0 p) 2) n hn
  | 0, hn, s, hs => by
    have hN : cfg0.N = 128 := N_0
    refine (congrFun (after_first_2 m c s (by omega) (by omega)) (ix2 p u)).trans ?_
    refine (stepZ_apply (iblk m c 0 s) (iblk m c 1 s) (iblk m c 2 s) (iblk m c 3 s) zeroCol p u).trans ?_
    exact congrArg₂ (· + ·) (zeroCol_apply p u) (Finset.sum_congr rfl fun q _ => bpush_point m c s b i0 0 hs 2 p q)
  | n + 1, hn, s, hs => by
    have hN : cfg0.N = 128 := N_0
    have hlt : s.val - 1 < cfg0.N := Nat.lt_of_le_of_lt (Nat.sub_le _ _) s.isLt
    have ih := col_2 c b i0 p u n (Nat.lt_of_succ_lt hn) ⟨s.val - 1, hlt⟩ (by show s.val - 1 = _; omega)
    have hstep : (outsAt0 m c s.val s.isLt).2.2.2 = stepZ (iblk m c 0 s) (iblk m c 1 s) (iblk m c 2 s) (iblk m c 3 s) (outsAt0 m c (s.val - 1) (Nat.lt_of_le_of_lt (Nat.sub_le _ _) s.isLt)).2.2.2 := by
      by_cases h3 : s.val % 4 = 3
      · exact after_last_2 m c s (by omega) h3
      · exact after_middle_2 m c s (by omega) h3
    refine (congrFun hstep (ix2 p u)).trans ?_
    refine (stepZ_apply (iblk m c 0 s) (iblk m c 1 s) (iblk m c 2 s) (iblk m c 3 s) (outsAt0 m c (s.val - 1) (Nat.lt_of_le_of_lt (Nat.sub_le _ _) s.isLt)).2.2.2 p u).trans ?_
    exact congrArg₂ (· + ·) ih (Finset.sum_congr rfl fun q _ => bpush_point m c s b i0 ⟨n + 1, hn⟩ hs 2 p q)

/-- So after the last key block it holds the sum over all 4096 points. -/
theorem total_2 (c : Dev nD) (t : Fin cfg0.N) (b : Fin 4) (i0 : Fin 8) (ht : t.val = 32 * b.val + 4 * i0.val + 3) (p : Fin 512) (u : Fin 1) :
    (outsAt0 m c t.val t.isLt).2.2.2 (ix2 p u) = ∑ k : Fin 4096, push (coords m c) (radii m c) b (rowPos i0 p) k 2 :=
  (col_2 m c b i0 p u 3 (by decide) t ht).trans (running_chunks fun k => push (coords m c) (radii m c) b (rowPos i0 p) k 2)

end Cert.KernelIdeal.Sums

end
-- ==== Proof.Whole.lean ====
/-
  The kernel's result array is the steric push of its arguments.

  The output's block is written back once per batch and query block, after the last key block; what is written is the
  steric push read through that block, and the 32 written blocks tile the result array (batch b, query block i₀ holds
  the points 512·i₀ … 512·i₀ + 511 of batch b). So the array ends holding the steric push everywhere.
-/
import proofs.«178476_j67714454389373_2_alg».proof.Proof.Sums

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Body Cert.KernelIdeal.Blocks Cert.KernelIdeal.Totals Cert.KernelIdeal.Sums Cert.Steric

variable (m : (ℓ : Loc nD τ sig) → Buf (Elt Ideal) ℓ) (ρ : Dev nD → PrngReg)

/-- A point of a last key block has number 32·b + 4·i₀ + 3. -/
theorem point_split (t : Fin cfg0.N) (h3 : t.val % 4 = 3) : ∃ (b : Fin 4) (i0 : Fin 8), t.val = 32 * b.val + 4 * i0.val + 3 := by
  have hN : cfg0.N = 128 := N_0
  have := t.isLt
  exact ⟨⟨t.val / 32, by omega⟩, ⟨t.val / 4 % 8, by omega⟩, by show t.val = 32 * (t.val / 32) + 4 * (t.val / 4 % 8) + 3; omega⟩

/-- Row p, column a of the output's block at that point is entry (b, 512·i₀ + p, a) of the result array. -/
theorem out_emb (t : Fin cfg0.N) (b : Fin 4) (i0 : Fin 8) (ht : t.val = 32 * b.val + 4 * i0.val + 3) (p : Fin 512) (a : Fin 3) :
    ((cfg0.win 4).blk t).view.emb (ix3 (0 : Fin 1) p a : S1x512x3.Idx) = (ix3 b (rowPos i0 p) a : S4x4096x3.Idx) := by
  funext ax
  apply Fin.ext
  obtain ⟨-, -, -, -, -, -, -, -, -, -, -, -, e0, e1, e2⟩ := idx_facts t
  have := b.isLt; have := i0.isLt
  match ax with
  | ⟨0, _⟩ => show win0_4.index t (0 : Fin 3) * 1 + 1 * 0 = b.val; omega
  | ⟨1, _⟩ => show win0_4.index t (1 : Fin 3) * 512 + 1 * p.val = 512 * i0.val + p.val; omega
  | ⟨2, _⟩ => show win0_4.index t (2 : Fin 3) * 3 + 1 * a.val = a.val; omega

/-- What a last key block's point writes back is the steric push of the arguments, read through the point's block. -/
theorem flushed_eq (c : Dev nD) (t : Fin cfg0.N) (hf : (cfg0.win 4).flush t = true) :
    (dats m 0 c).flushed 4 t = ((cfg0.win 4).blk t).view.read (Elt Ideal) (moved (coords m c) (radii m c)) := by
  have h3 : t.val % 4 = 3 := (flush0_4 t).mp hf
  obtain ⟨b, i0, ht⟩ := point_split t h3
  rw [Cert.KernelIdeal.Value.flushed4]
  refine funext fun (j : S1x512x3.Idx) => ?_
  obtain ⟨u, p, a, rfl⟩ : ∃ (u : Fin 1) (p : Fin 512) (a : Fin 3), j = ix3 u p a := ⟨j 0, j 1, j 2, eq_ix3 j⟩
  obtain rfl : u = 0 := Subsingleton.elim _ _
  show (outsAt0 m c t.val t.isLt).1 (ix3 (0 : Fin 1) p a)
    = moved (coords m c) (radii m c) (((cfg0.win 4).blk t).view.emb (ix3 (0 : Fin 1) p a : S1x512x3.Idx))
  rw [out_emb t b i0 ht p a]
  show _ = movedAt (coords m c) (radii m c) b (rowPos i0 p) a
  refine (congrFun (out_last m c t (by omega) h3) _).trans ?_
  unfold movedAt
  match a with
  | ⟨0, _⟩ =>
    exact (outBlock_apply_0 (iblk m c 0 t) _ _ _ p).trans (congrArg₂ (· + ·) (query_coords m c t b i0 3 ht p 0)
      (congrArg (fun S : EReal => (tenthW * S) * invCountW)
        ((congrFun (after_last_0 m c t (by omega) h3) (ix2 p (0 : Fin 1))).symm.trans (total_0 m c t b i0 ht p 0))))
  | ⟨1, _⟩ =>
    exact (outBlock_apply_1 (iblk m c 0 t) _ _ _ p).trans (congrArg₂ (· + ·) (query_coords m c t b i0 3 ht p 1)
      (congrArg (fun S : EReal => (tenthW * S) * invCountW)
        ((congrFun (after_last_1 m c t (by omega) h3) (ix2 p (0 : Fin 1))).symm.trans (total_1 m c t b i0 ht p 0))))
  | ⟨2, _⟩ =>
    exact (outBlock_apply_2 (iblk m c 0 t) _ _ _ p).trans (congrArg₂ (· + ·) (query_coords m c t b i0 3 ht p 2)
      (congrArg (fun S : EReal => (tenthW * S) * invCountW)
        ((congrFun (after_last_2 m c t (by omega) h3) (ix2 p (0 : Fin 1))).symm.trans (total_2 m c t b i0 ht p 0))))

/-- An index of the result array is in a point's block iff each coordinate is in the block's range on its axis. -/
theorem mem_blk (t : Fin cfg0.N) (i : S4x4096x3.Idx) :
    i ∈ ((cfg0.win 4).blk t).view.set ↔ ∀ a : Fin 3, win0_4.index t a * S1x512x3.size a ≤ (i a).val ∧ (i a).val < win0_4.index t a * S1x512x3.size a + S1x512x3.size a := by
  show i ∈ ((View.whole main_v3).slice (win0_4.rect t)).set ↔ _
  rw [View.set_slice_whole, Rect.mem_set_unit]
  exact Iff.rfl

/-- Every index of the result array is in the block some last-key-block point writes back. -/
theorem cover (i : S4x4096x3.Idx) : ∃ t : Fin cfg0.N, (cfg0.win 4).flush t = true ∧ i ∈ ((cfg0.win 4).blk t).view.set := by
  have hN : cfg0.N = 128 := N_0
  have h0 : (i 0).val < 4 := (i 0).isLt
  have h1 : (i 1).val < 4096 := (i 1).isLt
  have h2 : (i 2).val < 3 := (i 2).isLt
  obtain ⟨t, ht⟩ : ∃ t : Fin cfg0.N, t.val = 32 * (i 0).val + 4 * ((i 1).val / 512) + 3 := ⟨⟨_, by omega⟩, rfl⟩
  refine ⟨t, (flush0_4 t).mpr (by omega), ?_⟩
  rw [mem_blk]
  obtain ⟨-, -, -, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 3 ≤ (i 2).val ∧ (i 2).val < win0_4.index t (2 : Fin 3) * 3 + 3; omega

/-- So the result array ends holding the steric push of the arguments. -/
theorem final (c : Dev nD) : (dats m 0 c).arrAt 4 cfg0.N = moved (coords m c) (radii m c) :=
  (dats m 0 c).arrAt_eq_of_cover 4 (moved (coords m c) (radii m c)) (fun t hf => flushed_eq m c t hf) cover

/-- The kernel's run: every weakly fair execution terminates with the result array at the steric push of the arguments
    and the arguments unchanged. -/
theorem run : θ_run defs (onTc (τ := τ) (main (F := Ideal))) ⟨m, fun _ => 0, ρ⟩ fun r => ∀ c : Dev nD,
      r.2.mem ((c : Thread nD τ).loc main_v3) = moved (coords m c) (radii m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.RefValue.lean ====
/-
  The reference computes the steric push.

  Its forty-odd host operations, read at one index (batch b, point i, axis a): the pairwise differences are the
  coordinates' differences; their squares summed over the three axes are the squared distance; the guarded root is the
  root (a squared distance is never negative); the target less the root, cut at zero, is the penalty; the penalty times
  the clipped difference, summed over all points k and divided by 4096, scaled by 0.1 and added to the coordinate, is
  the result — the sum scaled by 0.1 and by 2⁻¹², since dividing by 4096 is multiplying by its exact reciprocal.
-/
import proofs.«178476_j67714454389373_2_alg».proof.Proof.Gen.ReferenceIdeal.Read
import proofs.«178476_j67714454389373_2_alg».proof.Proof.Spec

noncomputable section

open scoped BigOperators

namespace Cert.Steric.Ref

open Idealize.ShloMosaic Idealize.ShloMosaic.ValueIdx
open Cert.ReferenceIdeal Cert.ReferenceIdeal.Read Cert.Steric

variable (x0 : (⟨S4x4096x3, .f32⟩ : BufTy).Contents (Elt Ideal)) (x1 : (⟨S4x4096, .f32⟩ : BufTy).Contents (Elt Ideal))

/-! ## Where each stage reads its operands -/

theorem idx_q (b : Fin 4) (i k : Fin 4096) (a : Fin 3) : idx_main_v0 (idx_main_v2 (ix4 b i k a)) = ix3 b i a :=
  funext fun d => Fin.ext (by match d with | ⟨0, _⟩ => rfl | ⟨1, _⟩ => rfl | ⟨2, _⟩ => rfl)
theorem idx_k (b : Fin 4) (i k : Fin 4096) (a : Fin 3) : idx_main_v1 (idx_main_v3 (ix4 b i k a)) = ix3 b k a :=
  funext fun d => Fin.ext (by match d with | ⟨0, _⟩ => rfl | ⟨1, _⟩ => rfl | ⟨2, _⟩ => rfl)
theorem idx_axes (b : Fin 4) (i k : Fin 4096) (a : Fin 3) : idx_main_v6 (ix3 b i k) a = ix4 b i k a :=
  funext fun d => Fin.ext (by match d with | ⟨0, _⟩ => rfl | ⟨1, _⟩ => rfl | ⟨2, _⟩ => rfl | ⟨3, _⟩ => rfl)
theorem idx_ri (b : Fin 4) (i k : Fin 4096) : idx_main_v14 (idx_main_v16 (ix3 b i k)) = ix2 b i :=
  funext fun d => Fin.ext (by match d with | ⟨0, _⟩ => rfl | ⟨1, _⟩ => rfl)
theorem idx_rk (b : Fin 4) (i k : Fin 4096) : idx_main_v15 (idx_main_v17 (ix3 b i k)) = ix2 b k :=
  funext fun d => Fin.ext (by match d with | ⟨0, _⟩ => rfl | ⟨1, _⟩ => rfl)
theorem idx_pen (b : Fin 4) (i k : Fin 4096) (a : Fin 3) : idx_main_v23 (idx_main_v25 (ix4 b i k a)) = ix3 b i k :=
  funext fun d => Fin.ext (by match d with | ⟨0, _⟩ => rfl | ⟨1, _⟩ => rfl | ⟨2, _⟩ => rfl)
theorem idx_points (b : Fin 4) (i : Fin 4096) (a : Fin 3) (k : Fin 4096) : idx_main_v27 (ix3 b i a) k = ix4 b i k a :=
  funext fun d => Fin.ext (by match d with | ⟨0, _⟩ => rfl | ⟨1, _⟩ => rfl | ⟨2, _⟩ => rfl | ⟨3, _⟩ => rfl)

/-! ## The stages -/

/-- The difference of points i and k along axis a. -/
theorem diff_apply (b : Fin 4) (i k : Fin 4096) (a : Fin 3) :
    val_main_v4 (F := Ideal) x0 (ix4 b i k a) = x0 (ix3 b i a) - x0 (ix3 b k a) := by
  rw [val_main_v4_apply, val_main_v2_apply, val_main_v3_apply, val_main_v0_apply, val_main_v1_apply, idx_q, idx_k]
  rfl

/-- The squared distance of points i and k. -/
theorem d2_apply (b : Fin 4) (i k : Fin 4096) : val_main_v6 (F := Ideal) x0 (ix3 b i k) = sep2 x0 b i k := by
  rw [val_main_v6_apply]
  have e : ∀ a : Fin 3, val_main_v5 (F := Ideal) x0 (idx_main_v6 (ix3 b i k) a)
      = (x0 (ix3 b i a) - x0 (ix3 b k a)) * (x0 (ix3 b i a) - x0 (ix3 b k a)) := fun a => by
    rw [idx_axes, val_main_v5_apply, diff_apply]; rfl
  rw [Finset.sum_congr rfl fun a _ => e a]
  exact sum_three fun a => (x0 (ix3 b i a) - x0 (ix3 b k a)) * (x0 (ix3 b i a) - x0 (ix3 b k a))

/-- The guarded root is the distance. -/
theorem dist_apply (b : Fin 4) (i k : Fin 4096) : val_main_v13 (F := Ideal) x0 (ix3 b i k) = Ideal.sqrt (sep2 x0 b i k) := by
  rw [val_main_v13_apply, val_main_v8_apply, val_main_v12_apply, val_main_v11_apply, val_main_v10_apply, d2_apply,
    val_main_v7_apply, val_main_v9_apply, val_main_call0_v1_apply, val_main_call1_v1_apply]
  exact guarded_sqrt _ (dist2_nonneg _ _ _)

/-- The target distance. -/
theorem target_apply (b : Fin 4) (i k : Fin 4096) :
    val_main_v20 (F := Ideal) x1 (ix3 b i k) = max oneW (x1 (ix2 b i) + x1 (ix2 b k)) := by
  rw [val_main_v20_apply, val_main_v18_apply, val_main_v16_apply, val_main_v17_apply, val_main_v14_apply, val_main_v15_apply,
    val_main_v19_apply, idx_ri, idx_rk]
  rfl

/-- The penalty. -/
theorem pen_apply (b : Fin 4) (i k : Fin 4096) :
    val_main_v22 (F := Ideal) x0 x1 (ix3 b i k) = penalty (x1 (ix2 b i)) (x1 (ix2 b k)) (sep2 x0 b i k) := by
  rw [val_main_v22_apply, val_main_v21_apply, target_apply, dist_apply, val_main_call2_v0_apply]
  rfl

/-- The clipped difference. -/
theorem clip_apply (b : Fin 4) (i k : Fin 4096) (a : Fin 3) :
    val_main_v24 (F := Ideal) x0 (ix4 b i k a) = clip (x0 (ix3 b i a) - x0 (ix3 b k a)) := by
  rw [val_main_v24_apply, val_main_call3_v2_apply, diff_apply, val_main_call3_v4_apply, val_main_call3_v1_apply]
  rfl

/-- Point k's push on point i along axis a. -/
theorem push_apply (b : Fin 4) (i k : Fin 4096) (a : Fin 3) :
    val_main_v26 (F := Ideal) x0 x1 (ix4 b i k a) = push x0 x1 b i k a := by
  rw [val_main_v26_apply, val_main_v25_apply, val_main_v23_apply, idx_pen, pen_apply, clip_apply]
  rfl

/-- The reference's result at (b, i, a). -/
theorem result_apply (b : Fin 4) (i : Fin 4096) (a : Fin 3) :
    val_main_v32 (F := Ideal) x0 x1 (ix3 b i a) = movedAt x0 x1 b i a := by
  rw [val_main_v32_apply, val_main_v31_apply, val_main_v29_apply, val_main_v27_apply, val_main_v28_apply, val_main_v30_apply,
    Finset.sum_congr rfl fun k _ => (congrArg _ (idx_points b i a k)).trans (push_apply x0 x1 b i k a)]
  exact congrArg (x0 (ix3 b i a) + ·) (mean_scaled _)

/-- The reference's result is the steric push of its arguments. -/
theorem result_eq : val_main_v32 (F := Ideal) x0 x1 = moved x0 x1 := by
  funext j
  obtain ⟨b, i, a, rfl⟩ : ∃ (b : Fin 4) (i : Fin 4096) (a : Fin 3), j = ix3 b i a := ⟨j 0, j 1, j 2, eq_ix3 j⟩
  exact result_apply x0 x1 b i a

end Cert.Steric.Ref

end
-- ==== Proof.lean ====
/-
  The claim: the kernel and its reference compute the same steric push.

  Both programs move each of the 4096 points of each of 4 batches away from the points it overlaps:
  result(b,i,a) = c(b,i,a) + 0.1 · meanₖ( max(max(1, r(b,i) + r(b,k)) − dist(i,k), 0) · clip(c(b,i,a) − c(b,k,a), −1, 1) ).
  The reference forms the 4096 × 4096 pairs at once, guards the root against a zero argument, and divides the sum by
  4096. The kernel walks the pairs in blocks of 512 query points by 1024 key points, keeps a running column per axis
  across the four key blocks of a query block, takes the plain root, and multiplies the total by 2⁻¹². Over the extended
  reals these agree at every index: a squared distance is never negative, so the guard changes nothing; a sum of 4096
  terms is the running total of its four chunks; and 2⁻¹² is exactly the reciprocal of 4096. None of this uses that the
  inputs are finite. The idealized kernel is the kernel's own text read at the exact values, so there is nothing to
  preserve; the three frames are the generated ones.
-/
import proofs.«178476_j67714454389373_2_alg».proof.Defs
import proofs.«178476_j67714454389373_2_alg».proof.Proof.Gen.Kernel
import proofs.«178476_j67714454389373_2_alg».proof.Proof.Gen.Kernel.Frame
import proofs.«178476_j67714454389373_2_alg».proof.Proof.Gen.KernelIdeal
import proofs.«178476_j67714454389373_2_alg».proof.Proof.Gen.KernelIdeal.Frame
import proofs.«178476_j67714454389373_2_alg».proof.Proof.Gen.KernelIdeal.Value
import proofs.«178476_j67714454389373_2_alg».proof.Proof.Gen.ReferenceIdeal
import proofs.«178476_j67714454389373_2_alg».proof.Proof.Gen.ReferenceIdeal.Run
import proofs.«178476_j67714454389373_2_alg».proof.Proof.Gen.ReferenceIdeal.Read
import proofs.«178476_j67714454389373_2_alg».proof.Proof.Gen.Pre_finite_inputs
import proofs.«178476_j67714454389373_2_alg».proof.Proof.Whole
import proofs.«178476_j67714454389373_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the exact reading. -/
theorem preserves : Cert.preserves_Kernel_KernelIdeal := trivial

/-- From memories that agree on the arguments both programs end with the steric push of those arguments. -/
theorem algebraic : Cert.algebraic_KernelIdeal_ReferenceIdeal := by
  intro m ρ m' ρ' _ hagree
  refine ⟨fun c => Cert.Steric.moved (Cert.KernelIdeal.Sums.coords m c) (Cert.KernelIdeal.Sums.radii m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Steric.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
